-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000 : Shape := ⟨2, ![1024, 1000]⟩
abbrev S1000x32 : Shape := ⟨2, ![1000, 32]⟩
abbrev S1x1x32 : Shape := ⟨3, ![1, 1, 32]⟩
abbrev S_ : Shape := ⟨0, ![]⟩

class Facts : Prop where
  bcast_S_S1024x1000 : S_.BroadcastsInDim S1024x1000 (![] : Fin 0 → Fin S1024x1000.rank)
  reducesTo_S1024x1000_S_d0_1 : S1024x1000.ReducesTo [0, 1] S_
  h_S_ : 0 < S_.numel
  bcast_S_S1000x32 : S_.BroadcastsInDim S1000x32 (![] : Fin 0 → Fin S1000x32.rank)
  reducesTo_S1000x32_S_d0_1 : S1000x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_v13 : IVec S_ 1) (main_v16 : IVec S1x1x32 1) : IVec S_ 1 :=
  let main_c_5 : IVec S_ 1 := constantI S_ 1 1#1
  let main_v17 : IVec S_ 1 := (fun x v => Host.reduce IntOp.andi x v reducesTo_S1x1x32_S_d0_1_2 h_S_) main_v16 main_c_5
  let main_v18 : IVec S_ 1 := andi main_v13 main_v17
  main_v18

def fn {F : FTy → Type} [FloatOps F] (main_arg0 : FVec F S1024x1000 .f32) (main_arg1 : FVec F S1024x1000 .f32) (main_arg2 : FVec F S1000x32 .f32) (main_arg3 : FVec F S1x1x32 .f32) : IVec S_ 1 :=
  let main_v0 : FVec F S1024x1000 .f32 := Host.absf main_arg0
  let main_cst : FVec F S_ .f32 := constant S_ .f32 0x7F800000#32
  let main_v1 : FVec F S1024x1000 .f32 := broadcastInDim S1024x1000 ![] bcast_S_S1024x1000 main_cst
  let main_v2 : IVec S1024x1000 1 := cmpf .olt main_v0 main_v1
  let main_c : IVec S_ 1 := constantI S_ 1 1#1
  let main_v3 : IVec S_ 1 := (fun x v => Host.reduce IntOp.andi x v reducesTo_S1024x1000_S_d0_1 h_S_) main_v2 main_c
  let main_v4 : FVec F S1024x1000 .f32 := Host.absf main_arg1
  let main_cst_0 : FVec F S_ .f32 := constant S_ .f32 0x7F800000#32
  let main_v5 : FVec F S1024x1000 .f32 := broadcastInDim S1024x1000 ![] bcast_S_S1024x1000 main_cst_0
  let main_v6 : IVec S1024x1000 1 := cmpf .olt main_v4 main_v5
  let main_c_1 : IVec S_ 1 := constantI S_ 1 1#1
  let main_v7 : IVec S_ 1 := (fun x v => Host.reduce IntOp.andi x v reducesTo_S1024x1000_S_d0_1 h_S_) main_v6 main_c_1
  let main_v8 : IVec S_ 1 := andi main_v3 main_v7
  let main_v9 : FVec F S1000x32 .f32 := Host.absf main_arg2
  let main_cst_2 : FVec F S_ .f32 := constant S_ .f32 0x7F800000#32
  let main_v10 : FVec F S1000x32 .f32 := broadcastInDim S1000x32 ![] bcast_S_S1000x32 main_cst_2
  let main_v11 : IVec S1000x32 1 := cmpf .olt main_v9 main_v10
  let main_c_3 : IVec S_ 1 := constantI S_ 1 1#1
  let main_v12 : IVec S_ 1 := (fun x v => Host.reduce IntOp.andi x v reducesTo_S1000x32_S_d0_1 h_S_) main_v11 main_c_3
  let main_v13 : IVec S_ 1 := andi main_v8 main_v12
  let main_v14 : FVec F S1x1x32 .f32 := Host.absf main_arg3
  let main_cst_4 : FVec F S_ .f32 := constant S_ .f32 0x7F800000#32
  let main_v15 : FVec F S1x1x32 .f32 := broadcastInDim S1x1x32 ![] bcast_S_S1x1x32 main_cst_4
  let main_v16 : IVec S1x1x32 1 := cmpf .olt main_v14 main_v15
  fn_part1 (F := F) main_v13 main_v16
-- ==== Kernel.lean ====
abbrev S1024x1000 : Shape := ⟨2, ![1024, 1000]⟩
abbrev S1000x32 : Shape := ⟨2, ![1000, 32]⟩
abbrev S1x1x32 : Shape := ⟨3, ![1, 1, 32]⟩
abbrev S32 : Shape := ⟨1, ![32]⟩
abbrev S3840 : Shape := ⟨1, ![3840]⟩
abbrev S_ : Shape := ⟨0, ![]⟩
abbrev S40 : Shape := ⟨1, ![40]⟩
abbrev S40x1 : Shape := ⟨2, ![40, 1]⟩
abbrev S1x3840 : Shape := ⟨2, ![1, 3840]⟩
abbrev S40x3840 : Shape := ⟨2, ![40, 3840]⟩
abbrev S3840x1 : Shape := ⟨2, ![3840, 1]⟩
abbrev S1000x3x32 : Shape := ⟨3, ![1000, 3, 32]⟩
abbrev S1 : Shape := ⟨1, ![1]⟩
abbrev S1x96000 : Shape := ⟨2, ![1, 96000]⟩
abbrev S1000x1024 : Shape := ⟨2, ![1000, 1024]⟩
abbrev S1024x96000 : Shape := ⟨2, ![1024, 96000]⟩
abbrev S40x256 : Shape := ⟨2, ![40, 256]⟩
abbrev S256x3840 : Shape := ⟨2, ![256, 3840]⟩

abbrev nBuf : Space → Nat
  | .hbm => 107
  | .vmem => 10
  | .smem => 0
  | _ => 0

abbrev bufTy : (tb : Table) → Fin (tcTables nBuf tb) → BufTy
  | .hbm, ⟨0, _⟩ => ⟨S1024x1000, .f32⟩
  | .hbm, ⟨1, _⟩ => ⟨S1024x1000, .f32⟩
  | .hbm, ⟨2, _⟩ => ⟨S1000x32, .f32⟩
  | .hbm, ⟨3, _⟩ => ⟨S1x1x32, .f32⟩
  | .hbm, ⟨4, _⟩ => ⟨S32, .f32⟩
  | .hbm, ⟨5, _⟩ => ⟨S3840, .i32⟩
  | .hbm, ⟨6, _⟩ => ⟨S_, .i32⟩
  | .hbm, ⟨7, _⟩ => ⟨S_, .i32⟩
  | .hbm, ⟨8, _⟩ => ⟨S3840, .i32⟩
  | .hbm, ⟨9, _⟩ => ⟨S3840, .i32⟩
  | .hbm, ⟨10, _⟩ => ⟨S3840, .i32⟩
  | .hbm, ⟨11, _⟩ => ⟨S_, .i32⟩
  | .hbm, ⟨12, _⟩ => ⟨S3840, .i32⟩
  | .hbm, ⟨13, _⟩ => ⟨S3840, .i1⟩
  | .hbm, ⟨14, _⟩ => ⟨S3840, .i32⟩
  | .hbm, ⟨15, _⟩ => ⟨S3840, .i32⟩
  | .hbm, ⟨16, _⟩ => ⟨S_, .i32⟩
  | .hbm, ⟨17, _⟩ => ⟨S3840, .i32⟩
  | .hbm, ⟨18, _⟩ => ⟨S3840, .i1⟩
  | .hbm, ⟨19, _⟩ => ⟨S3840, .i1⟩
  | .hbm, ⟨20, _⟩ => ⟨S_, .i32⟩
  | .hbm, ⟨21, _⟩ => ⟨S3840, .i32⟩
  | .hbm, ⟨22, _⟩ => ⟨S3840, .i32⟩
  | .hbm, ⟨23, _⟩ => ⟨S3840, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S3840, .i32⟩
  | .hbm, ⟨31, _⟩ => ⟨S3840, .i32⟩
  | .hbm, ⟨32, _⟩ => ⟨S_, .i32⟩
  | .hbm, ⟨33, _⟩ => ⟨S3840, .i32⟩
  | .hbm, ⟨34, _⟩ => ⟨S3840, .i1⟩
  | .hbm, ⟨35, _⟩ => ⟨S_, .i32⟩
  | .hbm, ⟨36, _⟩ => ⟨S3840, .i32⟩
  | .hbm, ⟨37, _⟩ => ⟨S3840, .i1⟩
  | .hbm, ⟨38, _⟩ => ⟨S_, .i32⟩
  | .hbm, ⟨39, _⟩ => ⟨S_, .i1⟩
  | .hbm, ⟨40, _⟩ => ⟨S3840, .i1⟩
  | .hbm, ⟨41, _⟩ => ⟨S3840, .i1⟩
  | .hbm, ⟨42, _⟩ => ⟨S3840, .i1⟩
  | .hbm, ⟨43, _⟩ => ⟨S3840, .i32⟩
  | .hbm, ⟨44, _⟩ => ⟨S3840, .i32⟩
  | .hbm, ⟨45, _⟩ => ⟨S3840, .i32⟩
  | .hbm, ⟨46, _⟩ => ⟨S40, .i32⟩
  | .hbm, ⟨47, _⟩ => ⟨S40x1, .i32⟩
  | .hbm, ⟨48, _⟩ => ⟨S1x3840, .i32⟩
  | .hbm, ⟨49, _⟩ => ⟨S40x3840, .i32⟩
  | .hbm, ⟨50, _⟩ => ⟨S40x3840, .i32⟩
  | .hbm, ⟨51, _⟩ => ⟨S40x3840, .i1⟩
  | .hbm, ⟨52, _⟩ => ⟨S1x3840, .i32⟩
  | .hbm, ⟨53, _⟩ => ⟨S_, .i32⟩
  | .hbm, ⟨54, _⟩ => ⟨S1x3840, .i32⟩
  | .hbm, ⟨55, _⟩ => ⟨S1x3840, .i1⟩
  | .hbm, ⟨56, _⟩ => ⟨S40x3840, .i1⟩
  | .hbm, ⟨57, _⟩ => ⟨S40x3840, .i1⟩
  | .hbm, ⟨58, _⟩ => ⟨S_, .f32⟩
  | .hbm, ⟨59, _⟩ => ⟨S_, .f32⟩
  | .hbm, ⟨60, _⟩ => ⟨S40x3840, .f32⟩
  | .hbm, ⟨61, _⟩ => ⟨S40x3840, .f32⟩
  | .hbm, ⟨62, _⟩ => ⟨S40x3840, .f32⟩
  | .hbm, ⟨63, _⟩ => ⟨S1x3840, .i32⟩
  | .hbm, ⟨64, _⟩ => ⟨S40x3840, .i32⟩
  | .hbm, ⟨65, _⟩ => ⟨S40x3840, .i32⟩
  | .hbm, ⟨66, _⟩ => ⟨S40x3840, .i1⟩
  | .hbm, ⟨67, _⟩ => ⟨S1x3840, .i32⟩
  | .hbm, ⟨68, _⟩ => ⟨S_, .i32⟩
  | .hbm, ⟨69, _⟩ => ⟨S1x3840, .i32⟩
  | .hbm, ⟨70, _⟩ => ⟨S1x3840, .i1⟩
  | .hbm, ⟨71, _⟩ => ⟨S40x3840, .i1⟩
  | .hbm, ⟨72, _⟩ => ⟨S40x3840, .i1⟩
  | .hbm, ⟨73, _⟩ => ⟨S_, .i32⟩
  | .hbm, ⟨74, _⟩ => ⟨S3840, .i32⟩
  | .hbm, ⟨75, _⟩ => ⟨S3840, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S3840, .i32⟩
  | .hbm, ⟨80, _⟩ => ⟨S3840, .i32⟩
  | .hbm, ⟨81, _⟩ => ⟨S_, .i32⟩
  | .hbm, ⟨82, _⟩ => ⟨S3840, .i32⟩
  | .hbm, ⟨83, _⟩ => ⟨S3840, .i32⟩
  | .hbm, ⟨84, _⟩ => ⟨S_, .i32⟩
  | .hbm, ⟨85, _⟩ => ⟨S3840, .i32⟩
  | .hbm, ⟨86, _⟩ => ⟨S3840, .i1⟩
  | .hbm, ⟨87, _⟩ => ⟨S_, .i32⟩
  | .hbm, ⟨88, _⟩ => ⟨S3840, .i32⟩
  | .hbm, ⟨89, _⟩ => ⟨S3840, .i32⟩
  | .hbm, ⟨90, _⟩ => ⟨S3840, .i32⟩
  | .hbm, ⟨91, _⟩ => ⟨S3840x1, .i32⟩
  | .hbm, ⟨92, _⟩ => ⟨S3840, .f32⟩
  | .hbm, ⟨93, _⟩ => ⟨S1x3840, .f32⟩
  | .hbm, ⟨94, _⟩ => ⟨S_, .f32⟩
  | .hbm, ⟨95, _⟩ => ⟨S40x3840, .f32⟩
  | .hbm, ⟨96, _⟩ => ⟨S40x3840, .f32⟩
  | .hbm, ⟨97, _⟩ => ⟨S40x3840, .f32⟩
  | .hbm, ⟨98, _⟩ => ⟨S_, .f32⟩
  | .hbm, ⟨99, _⟩ => ⟨S1000x3x32, .f32⟩
  | .hbm, ⟨100, _⟩ => ⟨S_, .i32⟩
  | .hbm, ⟨101, _⟩ => ⟨S1, .i32⟩
  | .hbm, ⟨102, _⟩ => ⟨S1000x3x32, .f32⟩
  | .hbm, ⟨103, _⟩ => ⟨S1x96000, .f32⟩
  | .hbm, ⟨104, _⟩ => ⟨S1000x1024, .f32⟩
  | .hbm, ⟨105, _⟩ => ⟨S1000x1024, .f32⟩
  | .hbm, ⟨106, _⟩ => ⟨S1024x96000, .f32⟩
  | .local _ .vmem, ⟨0, _⟩ => ⟨S40x256, .f32⟩
  | .local _ .vmem, ⟨1, _⟩ => ⟨S40x256, .f32⟩
  | .local _ .vmem, ⟨2, _⟩ => ⟨S40x256, .f32⟩
  | .local _ .vmem, ⟨3, _⟩ => ⟨S40x256, .f32⟩
  | .local _ .vmem, ⟨4, _⟩ => ⟨S40x3840, .f32⟩
  | .local _ .vmem, ⟨5, _⟩ => ⟨S40x3840, .f32⟩
  | .local _ .vmem, ⟨6, _⟩ => ⟨S1x3840, .f32⟩
  | .local _ .vmem, ⟨7, _⟩ => ⟨S1x3840, .f32⟩
  | .local _ .vmem, ⟨8, _⟩ => ⟨S256x3840, .f32⟩
  | .local _ .vmem, ⟨9, _⟩ => ⟨S256x3840, .f32⟩
  | _, _ => ⟨S1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_c_3 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_v25 : Ref sig .tc := ⟨.hbm, 74, rfl⟩
abbrev main_v26 : Ref sig .tc := ⟨.hbm, 75, rfl⟩
abbrev main_c_5 : Ref sig .tc := ⟨.hbm, 76, rfl⟩
abbrev main_c_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v27 : Ref sig .tc := ⟨.hbm, 83, rfl⟩
abbrev main_c_7 : Ref sig .tc := ⟨.hbm, 84, rfl⟩
abbrev main_v28 : Ref sig .tc := ⟨.hbm, 85, rfl⟩
abbrev main_v29 : Ref sig .tc := ⟨.hbm, 86, rfl⟩
abbrev main_c_8 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_9 : Ref sig .tc := ⟨.hbm, 94, rfl⟩
abbrev main_call4_v0 : Ref sig .tc := ⟨.hbm, 95, rfl⟩
abbrev main_call4_v1 : Ref sig .tc := ⟨.hbm, 96, rfl⟩
abbrev main_v36 : Ref sig .tc := ⟨.hbm, 97, rfl⟩
abbrev main_cst_10 : Ref sig .tc := ⟨.hbm, 98, rfl⟩
abbrev main_v37 : Ref sig .tc := ⟨.hbm, 99, rfl⟩
abbrev main_c_11 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S40x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S40x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1x1x32_S32 : S1x1x32.ShapeCasts S32
  bcast_S_S3840 : S_.BroadcastsInDim S3840 (![] : Fin 0 → Fin S3840.rank)
  bcast_S40_S40x1_0 : S40.BroadcastsInDim S40x1 (![0] : Fin 1 → Fin S40x1.rank)
  bcast_S3840_S1x3840_1 : S3840.BroadcastsInDim S1x3840 (![1] : Fin 1 → Fin S1x3840.rank)
  bcast_S1x3840_S40x3840_0_1 : S1x3840.BroadcastsInDim S40x3840 (![0, 1] : Fin 2 → Fin S40x3840.rank)
  bcast_S40x1_S40x3840_0_1 : S40x1.BroadcastsInDim S40x3840 (![0, 1] : Fin 2 → Fin S40x3840.rank)
  bcast_S_S1x3840 : S_.BroadcastsInDim S1x3840 (![] : Fin 0 → Fin S1x3840.rank)
  bcast_S_S40x3840 : S_.BroadcastsInDim S40x3840 (![] : Fin 0 → Fin S40x3840.rank)
  bcast_S3840_S3840x1_0 : S3840.BroadcastsInDim S3840x1 (![0] : Fin 1 → Fin S3840x1.rank)
  bcast_S_S1000x3x32 : S_.BroadcastsInDim S1000x3x32 (![] : Fin 0 → Fin S1000x3x32.rank)
  bcast_S_S1 : S_.BroadcastsInDim S1 (![] : Fin 0 → Fin S1.rank)
  shapeCasts_S1000x3x32_S1x96000 : S1000x3x32.ShapeCasts S1x96000
  transposes_S1024x1000_S1000x1024_1_0 : S1024x1000.Transposes [1, 0] S1000x1024
  inb_S40x256_S40x256_0_0 : ∀ a, (![0, 0] : Fin 2 → Nat) a + S40x256.size a ≤ S40x256.size a
  h_S40x256 : 0 < S40x256.numel
  shapeCasts_S40x256_S40x256 : S40x256.ShapeCasts S40x256
  inb_S40x3840_S40x3840_0_0 : ∀ a, (![0, 0] : Fin 2 → Nat) a + S40x3840.size a ≤ S40x3840.size a
  h_S40x3840 : 0 < S40x3840.numel
  shapeCasts_S40x3840_S40x3840 : S40x3840.ShapeCasts S40x3840
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S256x3840 : S1x3840.Broadcasts S256x3840
  inb_S256x3840_S256x3840_0_0 : ∀ a, (![0, 0] : Fin 2 → Nat) a + S256x3840.size a ≤ S256x3840.size a
  h_S256x3840 : 0 < S256x3840.numel
  gather_S32_S3840x1_S3840_n_0_n_n_0_1_1_wf : GatherDims.WF S32 S3840x1 S3840 [] [0] [] [0] [] 1 ![1]
  scatter_S1000x3x32_S1_S1000x32_01_1_1_0_wf : ScatterDims.WF S1000x3x32 S1 S1000x32 [0, 1] [1] [1] 0
  dot_S40x256_S40x3840_S256x3840_0_0_1_1_n_n_wf : DotDims.WF S40x256 S40x3840 S256x3840 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x256.size a ≤ S1000x1024.size a
  hwx0_0 : ∀ i : grid0.Coords, EltTy.bits .f32 = 32 ∨ (Rect.block (s := S1000x1024) S40x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x256.size a ≤ S1000x1024.size a
  hwx0_1 : ∀ i : grid0.Coords, EltTy.bits .f32 = 32 ∨ (Rect.block (s := S1000x1024) S40x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x3840.size a ≤ S40x3840.size a
  hwx0_2 : ∀ i : grid0.Coords, EltTy.bits .f32 = 32 ∨ (Rect.block (s := S40x3840) S40x3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x3840.size a ≤ S40x3840.size a
  hwx0_3 : ∀ i : grid0.Coords, EltTy.bits .f32 = 32 ∨ (Rect.block (s := S40x3840) S40x3840.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3840.size a ≤ S1x96000.size a
  hwx0_4 : ∀ i : grid0.Coords, EltTy.bits .f32 = 32 ∨ (Rect.block (s := S1x96000) S1x3840.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3840.size a ≤ S1024x96000.size a
  hwx0_5 : ∀ i : grid0.Coords, EltTy.bits .f32 = 32 ∨ (Rect.block (s := S1024x96000) S256x3840.size (cc0_transform_5 i) (hinb0_5 i)).WholeWords (EltTy.packing .f32)

variable [Facts₀]

def gather_S32_S3840x1_S3840_n_0_n_n_0_1_1 : GatherDims S32 S3840x1 S3840 where
  offsetDims := []
  collapsedSliceDims := [0]
  operandBatchingDims := []
  startIndicesBatchingDims := []
  startIndexMap := [0]
  indexVectorDim := 1
  sliceSizes := ![1]
  wf := gather_S32_S3840x1_S3840_n_0_n_n_0_1_1_wf
def scatter_S1000x3x32_S1_S1000x32_01_1_1_0 : ScatterDims S1000x3x32 S1 S1000x32 where
  updateWindowDims := [0, 1]
  insertedWindowDims := [1]
  scatterDimsToOperandDims := [1]
  indexVectorDim := 0
  wf := scatter_S1000x3x32_S1_S1000x32_01_1_1_0_wf
def dot_S40x256_S40x3840_S256x3840_0_0_1_1_n_n : DotDims S40x256 S40x3840 S256x3840 where
  lhsContracting := [0]
  rhsContracting := [0]
  lhsNonContracting := [1]
  rhsNonContracting := [1]
  lhsBatch := []
  rhsBatch := []
  wf := dot_S40x256_S40x3840_S256x3840_0_0_1_1_n_n_wf

abbrev win0_0 : Pipeline.Window sig grid0 :=
  Pipeline.Window.ofSpec (Memref.whole main_v41) S40x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S40x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S40x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S40x3840.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x3840.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S256x3840.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1000 : Shape := ⟨2, ![1024, 1000]⟩
abbrev S1000x32 : Shape := ⟨2, ![1000, 32]⟩
abbrev S1x1x32 : Shape := ⟨3, ![1, 1, 32]⟩
abbrev S1024x1000x1 : Shape := ⟨3, ![1024, 1000, 1]⟩
abbrev S1024x1000x32 : Shape := ⟨3, ![1024, 1000, 32]⟩
abbrev S1000 : Shape := ⟨1, ![1000]⟩
abbrev S1x1000 : Shape := ⟨2, ![1, 1000]⟩
abbrev S_ : Shape := ⟨0, ![]⟩
abbrev S1 : Shape := ⟨1, ![1]⟩
abbrev S1x1x1 : Shape := ⟨3, ![1, 1, 1]⟩
abbrev S1024x1000x96 : Shape := ⟨3, ![1024, 1000, 96]⟩
abbrev S1024x96000 : Shape := ⟨2, ![1024, 96000]⟩

abbrev nBuf : Space → Nat
  | .hbm => 38
  | .vmem => 0
  | .smem => 0
  | _ => 0

abbrev bufTy : (tb : Table) → Fin (tcTables nBuf tb) → BufTy
  | .hbm, ⟨0, _⟩ => ⟨S1024x1000, .f32⟩
  | .hbm, ⟨1, _⟩ => ⟨S1024x1000, .f32⟩
  | .hbm, ⟨2, _⟩ => ⟨S1000x32, .f32⟩
  | .hbm, ⟨3, _⟩ => ⟨S1x1x32, .f32⟩
  | .hbm, ⟨4, _⟩ => ⟨S1024x1000x1, .f32⟩
  | .hbm, ⟨5, _⟩ => ⟨S1024x1000x32, .f32⟩
  | .hbm, ⟨6, _⟩ => ⟨S1000, .i32⟩
  | .hbm, ⟨7, _⟩ => ⟨S1x1000, .i32⟩
  | .hbm, ⟨8, _⟩ => ⟨S1024x1000, .i32⟩
  | .hbm, ⟨9, _⟩ => ⟨S_, .i32⟩
  | .hbm, ⟨10, _⟩ => ⟨S1024x1000, .i32⟩
  | .hbm, ⟨11, _⟩ => ⟨S1024x1000, .i1⟩
  | .hbm, ⟨12, _⟩ => ⟨S_, .i32⟩
  | .hbm, ⟨13, _⟩ => ⟨S1024x1000, .i32⟩
  | .hbm, ⟨14, _⟩ => ⟨S1024x1000, .i32⟩
  | .hbm, ⟨15, _⟩ => ⟨S1024x1000, .i32⟩
  | .hbm, ⟨16, _⟩ => ⟨S1024x1000x1, .i32⟩
  | .hbm, ⟨17, _⟩ => ⟨S1, .i32⟩
  | .hbm, ⟨18, _⟩ => ⟨S_, .i32⟩
  | .hbm, ⟨19, _⟩ => ⟨S1024x1000x1, .i32⟩
  | .hbm, ⟨20, _⟩ => ⟨S1024x1000x1, .i1⟩
  | .hbm, ⟨21, _⟩ => ⟨S1x1x1, .i32⟩
  | .hbm, ⟨22, _⟩ => ⟨S1024x1000x1, .i32⟩
  | .hbm, ⟨23, _⟩ => ⟨S1024x1000x1, .i1⟩
  | .hbm, ⟨24, _⟩ => ⟨S1024x1000x1, .i1⟩
  | .hbm, ⟨25, _⟩ => ⟨S_, .i1⟩
  | .hbm, ⟨26, _⟩ => ⟨S1024x1000, .i1⟩
  | .hbm, ⟨27, _⟩ => ⟨S1024x1000x32, .f32⟩
  | .hbm, ⟨28, _⟩ => ⟨S1024x1000x32, .i1⟩
  | .hbm, ⟨29, _⟩ => ⟨S_, .f32⟩
  | .hbm, ⟨30, _⟩ => ⟨S1024x1000x32, .f32⟩
  | .hbm, ⟨31, _⟩ => ⟨S1024x1000x32, .f32⟩
  | .hbm, ⟨32, _⟩ => ⟨S1024x1000x1, .f32⟩
  | .hbm, ⟨33, _⟩ => ⟨S1024x1000x32, .f32⟩
  | .hbm, ⟨34, _⟩ => ⟨S1024x1000x32, .f32⟩
  | .hbm, ⟨35, _⟩ => ⟨S1024x1000x32, .f32⟩
  | .hbm, ⟨36, _⟩ => ⟨S1024x1000x96, .f32⟩
  | .hbm, ⟨37, _⟩ => ⟨S1024x96000, .f32⟩
  | _, _ => ⟨S1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]

class Facts₀ : Prop where
  bcast_S1024x1000_S1024x1000x1_0_1 : S1024x1000.BroadcastsInDim S1024x1000x1 (![0, 1] : Fin 2 → Fin S1024x1000x1.rank)
  bcast_S1024x1000x1_S1024x1000x32_0_1_2 : S1024x1000x1.BroadcastsInDim S1024x1000x32 (![0, 1, 2] : Fin 3 → Fin S1024x1000x32.rank)
  bcast_S1000_S1x1000_1 : S1000.BroadcastsInDim S1x1000 (![1] : Fin 1 → Fin S1x1000.rank)
  bcast_S1x1000_S1024x1000_0_1 : S1x1000.BroadcastsInDim S1024x1000 (![0, 1] : Fin 2 → Fin S1024x1000.rank)
  bcast_S_S1024x1000 : S_.BroadcastsInDim S1024x1000 (![] : Fin 0 → Fin S1024x1000.rank)
  bcast_S_S1024x1000x1 : S_.BroadcastsInDim S1024x1000x1 (![] : Fin 0 → Fin S1024x1000x1.rank)
  bcast_S1_S1x1x1_2 : S1.BroadcastsInDim S1x1x1 (![2] : Fin 1 → Fin S1x1x1.rank)
  bcast_S1x1x1_S1024x1000x1_0_1_2 : S1x1x1.BroadcastsInDim S1024x1000x1 (![0, 1, 2] : Fin 3 → Fin S1024x1000x1.rank)
  reducesTo_S1024x1000x1_S1024x1000_d2 : S1024x1000x1.ReducesTo [2] S1024x1000
  h_S_ : 0 < S_.numel
  bcast_S1024x1000_S1024x1000x32_0_1 : S1024x1000.BroadcastsInDim S1024x1000x32 (![0, 1] : Fin 2 → Fin S1024x1000x32.rank)
  bcast_S_S1024x1000x32 : S_.BroadcastsInDim S1024x1000x32 (![] : Fin 0 → Fin S1024x1000x32.rank)
  bcast_S1x1x32_S1024x1000x32_0_1_2 : S1x1x32.BroadcastsInDim S1024x1000x32 (![0, 1, 2] : Fin 3 → Fin S1024x1000x32.rank)
  concatenates_S1024x1000x32_S1024x1000x32_S1024x1000x32_S1024x1000x96_d2 : Shape.Concatenates [S1024x1000x32, S1024x1000x32, S1024x1000x32] S1024x1000x96 2
  shapeCasts_S1024x1000x96_S1024x96000 : S1024x1000x96.ShapeCasts S1024x96000
  gather_S1000x32_S1024x1000x1_S1024x1000x32_2_0_n_n_0_2_132_wf : GatherDims.WF S1000x32 S1024x1000x1 S1024x1000x32 [2] [0] [] [0] [] 2 ![1, 32]

variable [Facts₀]

def gather_S1000x32_S1024x1000x1_S1024x1000x32_2_0_n_n_0_2_132 : GatherDims S1000x32 S1024x1000x1 S1024x1000x32 where
  offsetDims := [2]
  collapsedSliceDims := [0]
  operandBatchingDims := []
  startIndicesBatchingDims := []
  startIndexMap := [0]
  indexVectorDim := 2
  sliceSizes := ![1, 32]
  wf := gather_S1000x32_S1024x1000x1_S1024x1000x32_2_0_n_n_0_2_132_wf

class Facts : Prop extends Facts₀ where

variable [Facts]
-- ==== Proof.KHostPre.lean ====
/-
  The integer part of the host prologue, and the state it leaves.

  Before the tiles run, the host numbers the 3840 columns of a tile 0, 1, …, 3839 and computes, for each column q,
  its node inside the tile, q / 96 rounded down, and its lane inside the node's group, q mod 96 (taken with the
  divisor's sign).  Both are computed on signed 32-bit words with corrections for negative operands that never apply
  here: every column number is non-negative and far below 2^31, so the words are the natural numbers q / 96 and
  q % 96.  Both facts are about finitely many closed words and are decided.

  The same stretch of the prologue reshapes the condition embedding [1, 1, 32] to a vector [32] and leaves the
  argument arrays alone.
-/
import proofs.«154151_g28037546508343_cont_9to1_1400_6_alg».proof.Proof.Gen.KernelIdeal.Frame
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- Running two lists of host operations one after the other is running their concatenation. -/
theorem after_append {Val : EltTy → Type} (A B : List (HloOp τ sig Val)) (V : Valuation τ sig Val) :
    after (A ++ B) V = after B (after A V) := by
  induction A generalizing V with
  | nil => rfl
  | cons a A ih => simp only [List.cons_append, after_cons, ih]

/-- The prologue up to and including the quotient and the remainder of the column numbers by 96. -/
abbrev preOps : List (HloOp τ sig (Elt Ideal)) := hostOps0 ++ (hostOps0_1 ++ (hostOps0_2 ++ hostOps0_3))

/-- The buffers' contents after that stretch. -/
def W (c : Dev nD) : Valuation τ sig (Elt Ideal) := after preOps (fun b => m (c, b))

/-- Column q's node inside the tile: q / 96. -/
theorem W_quot (c : Dev nD) (q : Fin 3840) : (W m c main_v2 : S3840.Idx → BitVec 32) (ix1 q) = BitVec.ofNat 32 (q.val / 96) := by
  unfold W
  simp only [preOps, hostOps0, hostOps0_1, hostOps0_2, hostOps0_3, List.cons_append, List.nil_append]
  after_results_simp
  revert q
  decide +kernel

/-- Column q's lane inside its node's group: q % 96. -/
theorem W_rem (c : Dev nD) (q : Fin 3840) : (W m c main_v3 : S3840.Idx → BitVec 32) (ix1 q) = BitVec.ofNat 32 (q.val % 96) := by
  unfold W
  simp only [preOps, hostOps0, hostOps0_1, hostOps0_2, hostOps0_3, List.cons_append, List.nil_append]
  after_results_simp
  revert q
  decide +kernel

/-- The condition embedding as a vector: entry h of the [32] vector is entry (0, 0, h) of the argument. -/
theorem W_ce (c : Dev nD) (h : Fin 32) :
    (W m c main_v0 : S32.Idx → EReal) (ix1 h) = (m ((c : Thread nD τ).loc main_arg3) : S1x1x32.Idx → EReal) (ix3 (0 : Fin 1) (0 : Fin 1) h) := by
  unfold W
  simp only [preOps, hostOps0, hostOps0_1, hostOps0_2, hostOps0_3, List.cons_append, List.nil_append]
  after_results_simp
  exact shapeCast_apply (s := S1x1x32) (t := S32) _ shapeCasts_S1x1x32_S32 (ix1 h) (ix3 (0 : Fin 1) (0 : Fin 1) h) (by
    rw [Shape.rowMajor_val_three, Shape.rowMajor_val_one]
    show (0 * 1 + 0) * 32 + h.val = h.val
    omega)

theorem W_arg0 (c : Dev nD) : W m c main_arg0 = m ((c : Thread nD τ).loc main_arg0) := by
  unfold W
  simp only [preOps, hostOps0, hostOps0_1, hostOps0_2, hostOps0_3, List.cons_append, List.nil_append]
  after_results_simp

theorem W_arg1 (c : Dev nD) : W m c main_arg1 = m ((c : Thread nD τ).loc main_arg1) := by
  unfold W
  simp only [preOps, hostOps0, hostOps0_1, hostOps0_2, hostOps0_3, List.cons_append, List.nil_append]
  after_results_simp

theorem W_arg2 (c : Dev nD) : W m c main_arg2 = m ((c : Thread nD τ).loc main_arg2) := by
  unfold W
  simp only [preOps, hostOps0, hostOps0_1, hostOps0_2, hostOps0_3, List.cons_append, List.nil_append]
  after_results_simp

end Cert.KernelIdeal.Host

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.KWords.lean ====
/-
  The finitely many facts about signed 32-bit words that the pattern matrices rest on.

  A node number below 40 and a lane number below 96 are small non-negative words, so comparing them as signed words
  is comparing the numbers; and the lane's offset into the condition embedding, lane − 64 cut off to [0, 31] (and
  brought back into range by +32 if negative, which it never is), read as a signed number and cut off at 31 again by
  the lookup, is the natural number lane − 64 (zero for the lanes below 64, which never read it).
-/
import Idealize.ShloMosaic.PureOps

namespace Cert.Words

open Idealize.ShloMosaic

/-- Two node numbers of a tile are equal words iff they are equal. -/
theorem eq_word : ∀ a k : Fin 40, IntOp.cmpi .eq (BitVec.ofNat 32 a.val) (BitVec.ofNat 32 k.val) = if a.val = k.val then 1#1 else 0#1 := by
  decide +kernel

/-- A lane is in the first piece iff its word is below 32. -/
theorem lt32_word : ∀ j : Fin 96, IntOp.cmpi .slt (BitVec.ofNat 32 j.val) 32#32 = if j.val < 32 then 1#1 else 0#1 := by
  decide +kernel

/-- A lane is in the third piece iff its word is at least 64. -/
theorem ge64_word : ∀ j : Fin 96, IntOp.cmpi .sge (BitVec.ofNat 32 j.val) 64#32 = if 64 ≤ j.val then 1#1 else 0#1 := by
  decide +kernel

theorem eq_word' (a k : ℕ) (ha : a < 40) (hk : k < 40) :
    IntOp.cmpi .eq (BitVec.ofNat 32 a) (BitVec.ofNat 32 k) = if a = k then 1#1 else 0#1 := eq_word ⟨a, ha⟩ ⟨k, hk⟩

theorem lt32_word' (j : ℕ) (hj : j < 96) :
    IntOp.cmpi .slt (BitVec.ofNat 32 j) 32#32 = if j < 32 then 1#1 else 0#1 := lt32_word ⟨j, hj⟩

theorem ge64_word' (j : ℕ) (hj : j < 96) :
    IntOp.cmpi .sge (BitVec.ofNat 32 j) 64#32 = if 64 ≤ j then 1#1 else 0#1 := ge64_word ⟨j, hj⟩

/-- The lane's offset into the condition embedding, as the host computes it. -/
def clipWord (a : BitVec 32) : BitVec 32 :=
  Scalar.select (IntOp.cmpi .slt (IntOp.minsi 31#32 (IntOp.maxsi 0#32 (IntOp.subi a 64#32))) 0#32)
    (IntOp.addi (IntOp.minsi 31#32 (IntOp.maxsi 0#32 (IntOp.subi a 64#32))) 32#32)
    (IntOp.minsi 31#32 (IntOp.maxsi 0#32 (IntOp.subi a 64#32)))

/-- Read signed and cut off at 31, it is lane − 64 (zero below 64). -/
theorem clip_word : ∀ j : Fin 96, min (clipWord (BitVec.ofNat 32 j.val)).toInt.toNat (32 - 1) = j.val - 64 := by
  decide +kernel

theorem clip_word' (j : ℕ) (hj : j < 96) : min (clipWord (BitVec.ofNat 32 j)).toInt.toNat (32 - 1) = j - 64 := clip_word ⟨j, hj⟩

/-- The conjunction of two one-bit truth values. -/
theorem andi_ite (p r : Prop) [Decidable p] [Decidable r] :
    IntOp.andi (if p then 1#1 else 0#1) (if r then 1#1 else 0#1) = if p ∧ r then 1#1 else 0#1 := by
  by_cases hp : p <;> by_cases hr : r <;> simp [hp, hr, IntOp.andi]

/-- A select on a one-bit truth value. -/
theorem select_ite {α : Type} (p : Prop) [Decidable p] (a b : α) :
    Scalar.select (if p then 1#1 else 0#1) a b = if p then a else b := by
  by_cases hp : p <;> simp [hp, Scalar.select]

end Cert.Words
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibVecGather.lean ====
/-
  THE VECTOR GATHER READ AT AN INDEX. For a flat table `T : [N]` and an integer array of `E` positions, the array
  `T[idx] : [E]` is `stablehlo.gather` with offset_dims [], collapsed_slice_dims [0], start_index_map [0],
  index_vector_dim 1 and slice_sizes [1] over the positions as `[E, 1]`. Its element `e` is the table's element
  `row e`, where `row e` is the `e`-th position read as a signed integer and clamped into `[0, N − 1]` (a gather
  clamps every start index so that its slice fits). The position `row e` is the one the row gather of a table
  `[N, C]` reads its row at, so a vector and a matrix gathered at the same positions read the same node. Generic in
  the sizes `N`, `E`, the width of the index words and the element type.
-/
import Idealize.ShloMosaic.PureOps.Ideal
import Idealize.ShloMosaic.Lib.ValueIdx
import proofs.«154151_g28037546508343_cont_9to1_1400_6_alg».proof.Proof.LibRowGather

noncomputable section

namespace Cert.VecGather

open Idealize.ShloMosaic Idealize.ShloMosaic.ValueIdx

/-- The dimension numbers of `T[idx]` for `T : [N]` and the positions as `[E, 1]`: offset_dims [],
    collapsed_slice_dims [0], start_index_map [0], index_vector_dim 1, slice_sizes [1]. -/
abbrev dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads its one start index at `(e, 0)` of the positions. -/
theorem siIdx_eq {N E : Nat} (wf : GatherDims.WF ⟨1, ![N]⟩ ⟨2, ![E, 1]⟩ ⟨1, ![E]⟩ [] [0] [] [0] [] 1 ![1]) (e : Fin E) :
    (dims N E wf).siIdx (ix1 e) ⟨List.idxOf (0 : Fin 1) (dims N E wf).startIndexMap,
        List.idxOf_lt_length_iff.2 (List.mem_singleton.mpr rfl)⟩ = ix2 e (0 : Fin 1) := by
  funext b; refine Fin.ext ?_
  match b with
  | ⟨0, _⟩ => rfl
  | ⟨1, _⟩ => rfl

/-- THE VECTOR GATHER READ AT `e`: `T[idx][e] = T[row e]`, the position the `e`-th start index names once read
    signed and clamped into `[0, N − 1]`. -/
theorem gather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims N E wf) x idx (ix1 e) = x (ix1 (Cert.RowGather.row hN idx e)) := by
  unfold Host.gather
  congr 1
  funext a
  obtain rfl : a = 0 := Subsingleton.elim _ _
  refine Fin.ext ?_
  show (dims N E wf).start (ix1 e) idx 0 + (dims N E wf).batchCoord (ix1 e) 0 + (dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims N E wf).startIndexMap from List.mem_singleton.mpr rfl)]
  rw [siIdx_eq wf e]
  rfl

end Cert.VecGather

end
-- ==== Proof.LibScatterSet.lean ====
/-
  Reading a scatter whose body returns the update ("scatter-set") at one operand index.

  `Host.scatter d f x idx upd` is a left fold, over the update positions in row-major order, of the
  step "if this position's result index is `i`, replace the element at `i` by `f old (upd position)`".
  When `f` returns its second argument the step is a plain overwrite, and the value the fold leaves
  at an operand index `i'` is decided by which positions land on `i'`:

  * if exactly one update position `j` lands on `i'`, every other step leaves the element at `i'`
    untouched and the step of `j` writes `upd j` there, so the result at `i'` is `upd j`;
  * if no update position lands on `i'`, no step touches the element, so the result is `x i'`.

  Both are first shown for a fold of overwrite steps over an arbitrary list of positions (by
  induction on the list), then specialised to the list of all row-major positions, every update
  index being the row-major preimage of some position.
-/
import Idealize.ShloMosaic.PureOps.ShapeOps

namespace Cert.ScatterSet

open Idealize.ShloMosaic

section Fold
variable {ι β α : Type} [DecidableEq ι]

/-- One overwrite step: position `j` writes `upd j` at the index `g j` names, if it names one. -/
def step (g : β → Option ι) (upd : β → α) (r : ι → α) (j : β) : ι → α :=
  match g j with
  | some i => fun i' => if i' = i then upd j else r i'
  | none => r

/-- A step whose position lands on `i'` writes its update there. -/
theorem step_apply_hit (g : β → Option ι) (upd : β → α) (r : ι → α) (j : β) (i' : ι)
    (h : g j = some i') : step g upd r j i' = upd j := by
  unfold step
  rw [h]
  exact if_pos rfl

/-- A step whose position does not land on `i'` leaves the element at `i'` as it was. -/
theorem step_apply_miss (g : β → Option ι) (upd : β → α) (r : ι → α) (j : β) (i' : ι)
    (h : g j ≠ some i') : step g upd r j i' = r i' := by
  unfold step
  cases hg : g j with
  | none => rfl
  | some i =>
    have hne : i' ≠ i := fun e => h (by rw [hg, e])
    exact if_neg hne

/-- If no position of the list lands on `i'`, the fold leaves the element at `i'` as it was. -/
theorem foldl_step_miss (g : β → Option ι) (upd : β → α) (i' : ι) :
    ∀ (L : List β) (x : ι → α), (∀ j ∈ L, g j ≠ some i') → L.foldl (step g upd) x i' = x i' := by
  intro L
  induction L with
  | nil => intro x _; rfl
  | cons a L ih =>
    intro x h
    rw [List.foldl_cons, ih _ (fun j hj => h j (List.mem_cons_of_mem _ hj))]
    exact step_apply_miss g upd x a i' (h a List.mem_cons_self)

/-- If `j` is in the list, lands on `i'`, and is the only position of the list that does, the fold
    leaves `upd j` at `i'`. -/
theorem foldl_step_hit (g : β → Option ι) (upd : β → α) (i' : ι) (j : β) (hj : g j = some i') :
    ∀ (L : List β) (x : ι → α), j ∈ L → (∀ j' ∈ L, g j' = some i' → j' = j) →
      L.foldl (step g upd) x i' = upd j := by
  intro L
  induction L with
  | nil => intro x hmem; exact absurd hmem List.not_mem_nil
  | cons a L ih =>
    intro x hmem huniq
    rw [List.foldl_cons]
    by_cases hL : j ∈ L
    · exact ih _ hL (fun j' hj' => huniq j' (List.mem_cons_of_mem _ hj'))
    · have ha : a = j := by
        rcases List.mem_cons.1 hmem with h | h
        · exact h.symm
        · exact absurd h hL
      subst ha
      rw [foldl_step_miss g upd i' L _ (fun j' hj' e => hL (huniq j' (List.mem_cons_of_mem _ hj') e ▸ hj'))]
      exact step_apply_hit g upd x a i' hj

end Fold

section Scatter
variable {s si u : Shape} {α : Type} {w : Nat}

/-- A scatter whose body returns the update is the fold of overwrite steps over all row-major
    positions of the update. -/
theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter step
  congr 1
  funext r n
  beta_reduce
  cases d.resultIdx? (u.rowMajor.symm n) idx <;> rfl

/-- Scatter-set read at an index that exactly one update position lands on: that position's update. -/
theorem scatter_set_hit (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j := by
  rw [scatter_eq_foldl]
  have h := foldl_step_hit (fun n => d.resultIdx? (u.rowMajor.symm n) idx) (fun n => upd (u.rowMajor.symm n))
    i' (u.rowMajor j) (by simpa using hj) (List.finRange u.numel) x (List.mem_finRange _)
    (fun n _ hn => by
      have := huniq (u.rowMajor.symm n) hn
      rw [← this]; simp)
  simpa using h

/-- Scatter-set read at an index that no update position lands on: the operand's element. -/
theorem scatter_set_miss (d : ScatterDims s si u) (x : s.Idx → α) (idx : IVec si w) (upd : u.Idx → α)
    (i' : s.Idx) (hmiss : ∀ j, d.resultIdx? j idx ≠ some i') :
    Host.scatter d (fun _ b => b) x idx upd i' = x i' := by
  rw [scatter_eq_foldl]
  exact foldl_step_miss _ _ i' (List.finRange u.numel) x (fun n _ => hmiss (u.rowMajor.symm n))

end Scatter

end Cert.ScatterSet
-- ==== Proof.KScatter.lean ====
/-
  The host scatter of this program, read at an index.

  The program builds a [1000, 3, 32] array by writing a [1000, 32] table into the middle slice
  (coordinate 1 of axis 1) of an array of the operand's values: one scatter index, the constant 1,
  names the start on operand axis 1; the update's two axes are window axes going to operand axes 0
  and 2, and operand axis 1 is the inserted one.  So the update position (n', h') has start
  (0, 1, 0) and window coordinate (n', 0, h'), and lands on the operand index (n', 1, h'), always
  inside the operand.  Distinct positions land on distinct indices, every index (n, 1, h) is hit by
  the position (n, h) alone, and an index (n, s, h) with s ≠ 1 by none.  With the read-at-an-index
  laws of a scatter whose body returns the update this gives the result: the table on the middle
  slice, the operand elsewhere.
-/
import proofs.«154151_g28037546508343_cont_9to1_1400_6_alg».proof.KernelIdeal
import proofs.«154151_g28037546508343_cont_9to1_1400_6_alg».proof.Proof.LibScatterSet
import Idealize.ShloMosaic.Lib.ValueIdx

namespace Cert.KernelIdeal.Tile2

open Cert.KernelIdeal Idealize.ShloMosaic Idealize.ShloMosaic.ValueIdx

variable [Facts₀]

/-- The scatter's dimension record. -/
abbrev SD : ScatterDims S1000x3x32 S1 S1000x32 := scatter_S1000x3x32_S1_S1000x32_01_1_1_0

/-- The scatter indices have one element: any two of their indices are equal. -/
theorem S1_idx_eq (a b : S1.Idx) : a = b := by
  funext d
  match d with
  | ⟨0, _⟩ => exact Subsingleton.elim (α := Fin 1) _ _

/-! ### The window coordinate and the start, axis by axis -/

theorem SD_window0 (j : S1000x32.Idx) : SD.window j 0 = (j 0).val := by
  simp [ScatterDims.window, SD, scatter_S1000x3x32_S1_S1000x32_01_1_1_0, ScatterDims.sKept, Shape.kept]
  rfl
theorem SD_window1 (j : S1000x32.Idx) : SD.window j 1 = 0 := by
  simp [ScatterDims.window, SD, scatter_S1000x3x32_S1_S1000x32_01_1_1_0, ScatterDims.sKept, Shape.kept]
theorem SD_window2 (j : S1000x32.Idx) : SD.window j 2 = (j 1).val := by
  simp [ScatterDims.window, SD, scatter_S1000x3x32_S1_S1000x32_01_1_1_0, ScatterDims.sKept, Shape.kept]
  rfl
theorem SD_start0 (j : S1000x32.Idx) (idx : IVec S1 32) : SD.start j idx 0 = 0 := by
  simp [ScatterDims.start, SD, scatter_S1000x3x32_S1_S1000x32_01_1_1_0]
theorem SD_start2 (j : S1000x32.Idx) (idx : IVec S1 32) : SD.start j idx 2 = 0 := by
  simp [ScatterDims.start, SD, scatter_S1000x3x32_S1_S1000x32_01_1_1_0]
theorem SD_start1 (j : S1000x32.Idx) (idx : IVec S1 32) : SD.start j idx 1 = (idx (ix1 (0 : Fin 1))).toInt := by
  simp [ScatterDims.start, SD, scatter_S1000x3x32_S1_S1000x32_01_1_1_0]
  exact congrArg (fun k => (idx k).toInt) (S1_idx_eq _ _)

/-- Start plus window coordinate of the update position (n', h'), on every operand axis: (n', 1, h'). -/
theorem SD_sum (idx : IVec S1 32) (hidx : idx (ix1 (0 : Fin 1)) = 1#32) (n' : Fin 1000) (h' : Fin 32)
    (a : Fin S1000x3x32.rank) :
    SD.start (ix2 n' h') idx a + SD.window (ix2 n' h') a
      = (((ix3 n' (1 : Fin 3) h' : S1000x3x32.Idx) a).val : Int) := by
  match a with
  | ⟨0, _⟩ =>
    show SD.start (ix2 n' h') idx 0 + SD.window (ix2 n' h') 0 = _
    rw [SD_start0, SD_window0]; simp
  | ⟨1, _⟩ =>
    show SD.start (ix2 n' h') idx 1 + SD.window (ix2 n' h') 1 = _
    rw [SD_start1, SD_window1, hidx]; simp
  | ⟨2, _⟩ =>
    show SD.start (ix2 n' h') idx 2 + SD.window (ix2 n' h') 2 = _
    rw [SD_start2, SD_window2]; simp

/-- The update position (n', h') lands on the operand index (n', 1, h'). -/
theorem SD_resultIdx (idx : IVec S1 32) (hidx : idx (ix1 (0 : Fin 1)) = 1#32) (n' : Fin 1000) (h' : Fin 32) :
    SD.resultIdx? (ix2 n' h') idx = some (ix3 n' (1 : Fin 3) h') := by
  unfold ScatterDims.resultIdx?
  rw [dif_pos (fun a => by
    rw [SD_sum idx hidx n' h' a]
    exact ⟨Int.natCast_nonneg _, Int.ofNat_lt.2 ((ix3 n' (1 : Fin 3) h' : S1000x3x32.Idx) a).isLt⟩)]
  congr 1
  funext a
  apply Fin.ext
  simp only [SD_sum idx hidx n' h' a, Int.toNat_natCast]

theorem scatter_mid_apply {α : Type} (x : S1000x3x32.Idx → α) (idx : IVec S1 32) (hidx : idx (ix1 (0 : Fin 1)) = 1#32)
    (upd : S1000x32.Idx → α) (n : Fin 1000) (s : Fin 3) (h : Fin 32) :
    Host.scatter scatter_S1000x3x32_S1_S1000x32_01_1_1_0 (fun _ b => b) x idx upd (ix3 n s h)
      = if s.val = 1 then upd (ix2 n h) else x (ix3 n s h) := by
  by_cases hs : s.val = 1
  · rw [if_pos hs]
    have hs' : s = 1 := Fin.ext hs
    subst hs'
    refine Cert.ScatterSet.scatter_set_hit SD x idx upd (ix3 n 1 h) (ix2 n h) (SD_resultIdx idx hidx n h) ?_
    intro j' hj'
    obtain ⟨n', h', rfl⟩ : ∃ (n' : Fin 1000) (h' : Fin 32), j' = ix2 n' h' := ⟨j' 0, j' 1, eq_ix2 j'⟩
    rw [SD_resultIdx idx hidx n' h'] at hj'
    have e := Option.some.inj hj'
    have e0 : n' = n := congrFun e 0
    have e2 : h' = h := congrFun e 2
    rw [e0, e2]
  · rw [if_neg hs]
    refine Cert.ScatterSet.scatter_set_miss SD x idx upd (ix3 n s h) ?_
    intro j' hj'
    obtain ⟨n', h', rfl⟩ : ∃ (n' : Fin 1000) (h' : Fin 32), j' = ix2 n' h' := ⟨j' 0, j' 1, eq_ix2 j'⟩
    rw [SD_resultIdx idx hidx n' h'] at hj'
    have e := Option.some.inj hj'
    have e1 : (1 : Fin 3) = s := congrFun e 1
    exact hs (by rw [← e1]; rfl)

end Cert.KernelIdeal.Tile2
-- ==== Proof.KHostPost.lean ====
/-
  The rest of the host prologue: the five arrays the tiles read, each at an entry.

  From the state the integer part leaves (each column's node q / 96 and lane q % 96), the prologue builds
    • the pattern matrix of the value lanes, [40, 3840]: 1 where the column's node is the row and its lane is below 32;
    • the pattern matrix of the condition lanes: where the column's node is the row and its lane is at least 64, the
      condition embedding looked up at lane − 64 (the lookup's position is cut off to [0, 31], which changes nothing
      on those lanes; on the other lanes the entry is not read);
    • the row of node embeddings [1, 96000]: a [1000, 3, 32] array of zeros with the table written into its middle
      slice, laid out flat, so column 96 n + 32 s + h holds the table's (n, h) for s = 1 and zero for s = 0, 2;
    • the value and mask arrays transposed.
-/
import proofs.«154151_g28037546508343_cont_9to1_1400_6_alg».proof.Proof.KHostPre
import proofs.«154151_g28037546508343_cont_9to1_1400_6_alg».proof.Proof.LibBcastInDim
import proofs.«154151_g28037546508343_cont_9to1_1400_6_alg».proof.Proof.KWords
import proofs.«154151_g28037546508343_cont_9to1_1400_6_alg».proof.Proof.LibVecGather
import proofs.«154151_g28037546508343_cont_9to1_1400_6_alg».proof.Proof.KScatter
import Idealize.ShloMosaic.Lib.IdealHost

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The rest of the prologue: the two pattern matrices, the node-embedding row and the two transposes. -/
abbrev postOps : List (HloOp τ sig (Elt Ideal)) :=
  hostOps0_4 ++ (hostOps0_5 ++ (hostOps0_6 ++ (hostOps0_7 ++ (hostOps0_8 ++ (hostOps0_9 ++ hostOps0_10)))))

/-- What the tiles find is the rest of the prologue run from the state the integer part leaves. -/
theorem V_eq (c : Dev nD) (b : Ref sig .tc) : V m c b = after postOps (W m c) b := by
  have hL : (List.flatten [hostOps0, hostOps0_1, hostOps0_2, hostOps0_3, hostOps0_4, hostOps0_5, hostOps0_6, hostOps0_7, hostOps0_8, hostOps0_9, hostOps0_10] : List (HloOp τ sig (Elt Ideal)))
      = preOps ++ postOps := by
    simp only [preOps, postOps, List.flatten_cons, List.flatten_nil, List.append_nil, List.append_assoc]
  dsimp only [V]
  rw [hL, after_append]
  rfl

theorem iota_apply {n : ℕ} (k : Fin n) : iotaInDim (⟨1, ![n]⟩ : Shape) 32 0 (ix1 k) = BitVec.ofNat 32 k.val := rfl
theorem andi_apply {s : Shape} {w : ℕ} (x y : IVec s w) (i : s.Idx) : andi x y i = IntOp.andi (x i) (y i) := rfl
theorem cmpi_apply {s : Shape} {w : ℕ} (p : CmpIPredicate) (x y : IVec s w) (i : s.Idx) : cmpi p x y i = IntOp.cmpi p (x i) (y i) := rfl
theorem subi_apply {s : Shape} {w : ℕ} (x y : IVec s w) (i : s.Idx) : subi x y i = IntOp.subi (x i) (y i) := rfl
theorem addi_apply {s : Shape} {w : ℕ} (x y : IVec s w) (i : s.Idx) : addi x y i = IntOp.addi (x i) (y i) := rfl
theorem maxsi_apply {s : Shape} {w : ℕ} (x y : IVec s w) (i : s.Idx) : maxsi x y i = IntOp.maxsi (x i) (y i) := rfl
theorem minsi_apply {s : Shape} {w : ℕ} (x y : IVec s w) (i : s.Idx) : minsi x y i = IntOp.minsi (x i) (y i) := rfl

/-! ## The broadcasts of this prologue, read at coordinates -/

theorem rowmat {α : Type} (x : S1x3840.Idx → α) (k : Fin 40) (q : Fin 3840) :
    broadcastInDim S40x3840 ![0, 1] bcast_S1x3840_S40x3840_0_1 x (ix2 k q) = x (ix2 (0 : Fin 1) q) :=
  Cert.BcastInDim.row_mat_apply (a := 40) (b := 3840) x _ k q
theorem vecrow {α : Type} (x : S3840.Idx → α) (u : Fin 1) (q : Fin 3840) :
    broadcastInDim S1x3840 ![1] bcast_S3840_S1x3840_1 x (ix2 u q) = x (ix1 q) :=
  Cert.BcastInDim.vec_row_apply (b := 3840) x _ u q
theorem colmat {α : Type} (x : S40x1.Idx → α) (k : Fin 40) (q : Fin 3840) :
    broadcastInDim S40x3840 ![0, 1] bcast_S40x1_S40x3840_0_1 x (ix2 k q) = x (ix2 k (0 : Fin 1)) :=
  Cert.BcastInDim.col_mat_apply (a := 40) (b := 3840) x _ k q
theorem veccol {α : Type} (x : S40.Idx → α) (k : Fin 40) (u : Fin 1) :
    broadcastInDim S40x1 ![0] bcast_S40_S40x1_0 x (ix2 k u) = x (ix1 k) :=
  Cert.BcastInDim.vec_col_apply (a := 40) x _ k u
theorem veccol' {α : Type} (x : S3840.Idx → α) (q : Fin 3840) (u : Fin 1) :
    broadcastInDim S3840x1 ![0] bcast_S3840_S3840x1_0 x (ix2 q u) = x (ix1 q) :=
  Cert.BcastInDim.vec_col_apply (a := 3840) x _ q u
theorem scal_mat {α : Type} (x : S_.Idx → α) (j : S40x3840.Idx) : broadcastInDim S40x3840 ![] bcast_S_S40x3840 x j = x ix0 :=
  Cert.BcastInDim.scalar_apply x _ j
theorem scal_row {α : Type} (x : S_.Idx → α) (j : S1x3840.Idx) : broadcastInDim S1x3840 ![] bcast_S_S1x3840 x j = x ix0 :=
  Cert.BcastInDim.scalar_apply x _ j
theorem scal_vec {α : Type} (x : S_.Idx → α) (j : S3840.Idx) : broadcastInDim S3840 ![] bcast_S_S3840 x j = x ix0 :=
  Cert.BcastInDim.scalar_apply x _ j
theorem scal_cube {α : Type} (x : S_.Idx → α) (j : S1000x3x32.Idx) : broadcastInDim S1000x3x32 ![] bcast_S_S1000x3x32 x j = x ix0 :=
  Cert.BcastInDim.scalar_apply x _ j
theorem scal_one {α : Type} (x : S_.Idx → α) (j : S1.Idx) : broadcastInDim S1 ![] bcast_S_S1 x j = x ix0 :=
  Cert.BcastInDim.scalar_apply x _ j
theorem iota40 (k : Fin 40) : iotaInDim S40 32 0 (ix1 k) = BitVec.ofNat 32 k.val := rfl

/-! ## The five arrays the tiles read -/

/-- The transposed value array: entry (n, b) is x(b, n). -/
theorem V_xt (c : Dev nD) (n : Fin 1000) (b : Fin 1024) :
    (V m c main_v41 : S1000x1024.Idx → EReal) (ix2 n b) = (m ((c : Thread nD τ).loc main_arg0) : S1024x1000.Idx → EReal) (ix2 b n) := by
  rw [V_eq]
  simp only [postOps, hostOps0_4, hostOps0_5, hostOps0_6, hostOps0_7, hostOps0_8, hostOps0_9, hostOps0_10, List.cons_append, List.nil_append]
  after_results_simp
  rw [W_arg0]
  exact transpose_ix2_apply _ _ n b

/-- The transposed mask array: entry (n, b) is mask(b, n). -/
theorem V_mt (c : Dev nD) (n : Fin 1000) (b : Fin 1024) :
    (V m c main_v42 : S1000x1024.Idx → EReal) (ix2 n b) = (m ((c : Thread nD τ).loc main_arg1) : S1024x1000.Idx → EReal) (ix2 b n) := by
  rw [V_eq]
  simp only [postOps, hostOps0_4, hostOps0_5, hostOps0_6, hostOps0_7, hostOps0_8, hostOps0_9, hostOps0_10, List.cons_append, List.nil_append]
  after_results_simp
  rw [W_arg1]
  exact transpose_ix2_apply _ _ n b

/-- The pattern matrix of the value lanes: 1 in row k of a column of node k whose lane is below 32, else 0. -/
theorem V_wx (c : Dev nD) (k : Fin 40) (q : Fin 3840) :
    (V m c main_v15 : S40x3840.Idx → EReal) (ix2 k q) = if q.val / 96 = k.val ∧ q.val % 96 < 32 then (1 : EReal) else 0 := by
  rw [V_eq]
  simp only [postOps, hostOps0_4, hostOps0_5, hostOps0_6, hostOps0_7, hostOps0_8, hostOps0_9, hostOps0_10, List.cons_append, List.nil_append]
  after_results_simp
  simp only [cast_eq]
  simp only [select_apply, andi_apply, cmpi_apply]
  repeat (first | rw [rowmat] | rw [colmat] | rw [vecrow] | rw [veccol] | rw [veccol'] | rw [scal_mat] | rw [scal_row] | rw [scal_vec] | rw [cmpi_apply])
  simp only [constantI_apply, constant_apply, iota40]
  rw [W_quot, W_rem, Cert.Words.eq_word' _ _ (by omega) k.isLt, Cert.Words.lt32_word' _ (Nat.mod_lt _ (by decide)),
    Cert.Words.andi_ite, Cert.Words.select_ite, Ideal.ofBits_one_f32, Ideal.ofBits_zero_f32]

/-- The pattern matrix of the condition lanes: in row k of a column of node k whose lane is at least 64, the condition
    embedding's entry lane − 64 (which is lane % 32 there); else 0. -/
theorem V_wm (c : Dev nD) (k : Fin 40) (q : Fin 3840) :
    (V m c main_v36 : S40x3840.Idx → EReal) (ix2 k q)
      = if q.val / 96 = k.val ∧ 64 ≤ q.val % 96
        then (m ((c : Thread nD τ).loc main_arg3) : S1x1x32.Idx → EReal) (ix3 (0 : Fin 1) (0 : Fin 1) (⟨q.val % 96 % 32, Nat.mod_lt _ (by decide)⟩ : Fin 32))
        else (0 : EReal) := by
  rw [V_eq]
  simp only [postOps, hostOps0_4, hostOps0_5, hostOps0_6, hostOps0_7, hostOps0_8, hostOps0_9, hostOps0_10, List.cons_append, List.nil_append]
  after_results_simp
  simp only [cast_eq]
  simp only [select_apply, andi_apply, cmpi_apply]
  repeat (first | rw [rowmat] | rw [colmat] | rw [vecrow] | rw [veccol] | rw [veccol'] | rw [scal_mat] | rw [scal_row] | rw [scal_vec] | rw [cmpi_apply])
  simp only [constantI_apply, constant_apply, iota40]
  rw [W_quot, W_rem, Cert.Words.eq_word' _ _ (by omega) k.isLt, Cert.Words.ge64_word' _ (Nat.mod_lt _ (by decide)),
    Cert.Words.andi_ite, Cert.Words.select_ite, Ideal.ofBits_zero_f32]
  by_cases hp : q.val / 96 = k.val ∧ 64 ≤ q.val % 96
  · rw [if_pos hp, if_pos hp]
    refine (Cert.VecGather.gather_apply (N := 32) (E := 3840) (by decide) gather_S32_S3840x1_S3840_n_0_n_n_0_1_1_wf _ _ q).trans ?_
    rw [W_ce]
    refine congrArg _ (congrArg (fun h => ix3 (0 : Fin 1) (0 : Fin 1) h) (Fin.ext ?_))
    rw [Cert.RowGather.row_val, veccol']
    simp only [select_apply, cmpi_apply, addi_apply, minsi_apply, maxsi_apply, subi_apply]
    repeat rw [scal_vec]
    simp only [constantI_apply]
    rw [W_rem]
    have hc := Cert.Words.clip_word' (q.val % 96) (Nat.mod_lt _ (by decide))
    unfold Cert.Words.clipWord at hc
    refine Eq.trans hc ?_
    omega
  · rw [if_neg hp, if_neg hp]

/-- The row of node embeddings, at column q of the tile column range nj: the embedding of node nj · 40 + q / 96 at
    lane % 32 on the middle piece of the node's lanes, zero on the other two. -/
theorem V_t (c : Dev nD) (nj q : ℕ) (hnj : nj < 25) (hq : q < 3840) :
    (V m c main_v40 : S1x96000.Idx → EReal) (ix2 (0 : Fin 1) (⟨nj * 3840 + q, by omega⟩ : Fin 96000))
      = if q % 96 / 32 = 1
        then (m ((c : Thread nD τ).loc main_arg2) : S1000x32.Idx → EReal) (ix2 (⟨nj * 40 + q / 96, by omega⟩ : Fin 1000) (⟨q % 96 % 32, Nat.mod_lt _ (by decide)⟩ : Fin 32))
        else (0 : EReal) := by
  rw [V_eq]
  simp only [postOps, hostOps0_4, hostOps0_5, hostOps0_6, hostOps0_7, hostOps0_8, hostOps0_9, hostOps0_10, List.cons_append, List.nil_append]
  after_results_simp
  refine (shapeCast_apply (s := S1000x3x32) (t := S1x96000) _ shapeCasts_S1000x3x32_S1x96000 _
    (ix3 (⟨nj * 40 + q / 96, by omega⟩ : Fin 1000) (⟨q % 96 / 32, by omega⟩ : Fin 3) (⟨q % 96 % 32, Nat.mod_lt _ (by decide)⟩ : Fin 32)) (by
      rw [Shape.rowMajor_val_three, Shape.rowMajor_val_two]
      show ((nj * 40 + q / 96) * 3 + q % 96 / 32) * 32 + q % 96 % 32 = 0 * 96000 + (nj * 3840 + q)
      omega)).trans ?_
  rw [Cert.KernelIdeal.Tile2.scatter_mid_apply _ _ (by rfl) _ _ _ _, W_arg2]
  rw [scal_cube]
  simp only [constant_apply, Ideal.ofBits_zero_f32]

end Cert.KernelIdeal.Host
end
-- ==== Proof.Spec.lean ====
/-
  The embedding row, as one function of the four argument arrays.

  Column `c` of the output belongs to node `c / 96` and, inside that node's group of 96 columns, to lane
  `c % 96`.  The group is three pieces of 32 lanes:
    lanes  0–31 : the value `x b n`, repeated;
    lanes 32–63 : the node's own embedding row `tab n (lane - 32)`;
    lanes 64–95 : the condition embedding scaled by the mask, `ce (lane - 64) * mask b n`.
  Inside each piece the lane's offset is `c % 96 % 32`.
-/
import Idealize.ShloMosaic.PureOps.Ideal
import Idealize.ShloMosaic.Lib.ValueIdx

noncomputable section

namespace Cert.Embed

open Idealize.ShloMosaic Idealize.ShloMosaic.ValueIdx

/-- The node a column belongs to. -/
def node (c : Fin 96000) : Fin 1000 := ⟨c.val / 96, by omega⟩

/-- The column's offset inside its 32-lane piece. -/
def lane (c : Fin 96000) : Fin 32 := ⟨c.val % 96 % 32, Nat.mod_lt _ (by decide)⟩

/-- The output array, index by index, on the extended reals. -/
def G (x mask : FVec Ideal ⟨2, ![1024, 1000]⟩ .f32) (tab : FVec Ideal ⟨2, ![1000, 32]⟩ .f32)
    (ce : FVec Ideal ⟨3, ![1, 1, 32]⟩ .f32) : FVec Ideal ⟨2, ![1024, 96000]⟩ .f32 :=
  fun i =>
    if (i 1).val % 96 < 32 then x (ix2 (i 0) (node (i 1)))
    else if (i 1).val % 96 < 64 then tab (ix2 (node (i 1)) (lane (i 1)))
    else ce (ix3 0 0 (lane (i 1))) * mask (ix2 (i 0) (node (i 1)))

/-- `G` at an index given by coordinates. -/
theorem G_apply (x mask : FVec Ideal ⟨2, ![1024, 1000]⟩ .f32) (tab : FVec Ideal ⟨2, ![1000, 32]⟩ .f32)
    (ce : FVec Ideal ⟨3, ![1, 1, 32]⟩ .f32) (b : Fin 1024) (c : Fin 96000) :
    G x mask tab ce (ix2 b c) =
      if c.val % 96 < 32 then x (ix2 b (node c))
      else if c.val % 96 < 64 then tab (ix2 (node c) (lane c))
      else ce (ix3 0 0 (lane c)) * mask (ix2 b (node c)) := rfl

end Cert.Embed

end
-- ==== Proof.KSum.lean ====
/-
  The arithmetic that joins the two sides, on the extended reals.

  A tile's entry is two sums over the tile's 40 nodes plus one row entry.  Each pattern matrix has, in a column of
  node a, a single non-zero entry, in row a: the sum against it keeps the one term of node a.  The three pieces of a
  node's 96 lanes each keep exactly one of the three summands:
    lanes  0–31 :  x · 1 + 0 + 0;     lanes 32–63 :  0 + 0 + t;     lanes 64–95 :  0 + m · ce + 0.
  Only x · 0 = 0, x · 1 = x, 0 + x = x = x + 0 and the commutativity of the product are used, all of which hold on the
  extended reals without any finiteness.
-/
import Mathlib.Data.EReal.Inv
import Mathlib.Algebra.BigOperators.Fin

namespace Cert.Embed

/-- A sum over the nodes of a tile against a column that is zero outside row `a`. -/
theorem sum_indicator {K : ℕ} (L : Fin K → EReal) (a : ℕ) (ha : a < K) (P : Prop) [Decidable P] (v : EReal) :
    (∑ k : Fin K, L k * (if a = k.val ∧ P then v else 0)) = if P then L ⟨a, ha⟩ * v else 0 := by
  by_cases hP : P
  · simp only [hP, and_true, if_true]
    rw [Finset.sum_eq_single (⟨a, ha⟩ : Fin K)]
    · simp
    · intro b _ hb
      have hne : a ≠ b.val := fun e => hb (Fin.ext e.symm)
      simp [hne]
    · intro h; exact absurd (Finset.mem_univ _) h
  · simp [hP]

/-- A tile's entry in a column of node `a` and lane `j`: the value, the node's embedding, or the scaled condition
    embedding, by the lane's piece. -/
theorem tile_entry (X M : Fin 40 → EReal) (a : ℕ) (ha : a < 40) (j : ℕ) (hj : j < 96) (cev tv : EReal) :
    ((∑ k : Fin 40, X k * (if a = k.val ∧ j < 32 then (1 : EReal) else 0))
        + (∑ k : Fin 40, M k * (if a = k.val ∧ 64 ≤ j then cev else 0)))
      + (if j / 32 = 1 then tv else 0)
      = if j < 32 then X ⟨a, ha⟩ else if j < 64 then tv else cev * M ⟨a, ha⟩ := by
  rw [sum_indicator X a ha, sum_indicator M a ha]
  by_cases h1 : j < 32
  · have h2 : ¬ 64 ≤ j := by omega
    have h3 : ¬ j / 32 = 1 := by omega
    simp [h1, h2, h3]
  · by_cases h2 : j < 64
    · have h3 : ¬ 64 ≤ j := by omega
      have h4 : j / 32 = 1 := by omega
      simp [h1, h2, h3, h4]
    · have h3 : 64 ≤ j := by omega
      have h4 : ¬ j / 32 = 1 := by omega
      simp [h1, h2, h3, h4]
      exact EReal.mul_comm (M ⟨a, ha⟩) cev

end Cert.Embed
-- ==== Proof.LibMatmulCols.lean ====
/-
  A rank-2 matrix product whose contraction runs along the FIRST axis of both operands, read at an entry.

  `matmul_cols_cols`: a matrix unit's product of a [K, A] by a [K, B] matrix into a zero accumulator, contracting
  axis 0 of the left operand with axis 0 of the right one, read at (p, q), is ∑ k, L(k,p) · R(k,q): COLUMN p of the
  left operand times column q of the right one (the product of the left operand's transpose with the right operand).
  Stated for any dimension record whose four index facts (the left index takes the contraction position and the output
  row, the right index the contraction position and the output column) are supplied.
-/
import Idealize.ShloMosaic.Lib.ValueIdx
import Idealize.ShloMosaic.Lib.Pipeline.Value
import Idealize.ShloMosaic.PureOps.Ideal.Laws

noncomputable section

namespace Cert.MatmulCols

open Idealize.ShloMosaic Idealize.ShloMosaic.ValueIdx

/-- A matrix product into a zero accumulator that contracts the first axis of both operands, read at (p, q): the sum
    over the contracted axis of the left operand's column p times the right operand's column q. -/
theorem matmul_cols_cols {A K B : ℕ} {φ₁ φ₂ : FTy}
    (d : DotDims ⟨2, ![K, A]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (q ⟨0, by omega⟩).val)
    (hl1 : ∀ (i : (⟨2, ![A, B]⟩ : Shape).Idx) (q : d.contr.Idx), (d.lhsIdx i q 1).val = (i 0).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![K, A]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 k p) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.MatmulCols

end
-- ==== Proof.KPayload.lean ====
/-
  The kernel body's stored value, read at an entry of the tile.

  The body multiplies the transposed x-tile by the pattern matrix for the value lanes, the transposed mask-tile by the
  pattern matrix for the condition lanes, adds the two products and then the one row of the node-embedding tile,
  broadcast down the 256 rows.  At entry (p, q) of the [256, 3840] tile that is
      (∑ k, xt(k,p) · wx(k,q)  +  ∑ k, mt(k,p) · wm(k,q))  +  t(0,q),
  the sums over the 40 nodes of the tile.
-/
import proofs.«154151_g28037546508343_cont_9to1_1400_6_alg».proof.Proof.Gen.KernelIdeal.Skeleton
import proofs.«154151_g28037546508343_cont_9to1_1400_6_alg».proof.Proof.LibMatmulCols
import Idealize.ShloMosaic.Lib.ValueLayout

noncomputable section

namespace Cert.KernelIdeal.Tile

open Cert.KernelIdeal Cert.KernelIdeal.Gen Idealize.ShloMosaic Idealize.ShloMosaic.ValueIdx

abbrev D := dot_S40x256_S40x3840_S256x3840_0_0_1_1_n_n

theorem D_rank : D.contr.rank = 1 := by decide
theorem D_size : D.contr.size ⟨0, by decide⟩ = 40 := by decide

theorem D_l0 (i : S256x3840.Idx) (q : D.contr.Idx) : (D.lhsIdx i q 0).val = (q ⟨0, by decide⟩).val := by
  simp [DotDims.lhsIdx, D, dot_S40x256_S40x3840_S256x3840_0_0_1_1_n_n]; rfl
theorem D_l1 (i : S256x3840.Idx) (q : D.contr.Idx) : (D.lhsIdx i q 1).val = (i 0).val := by
  simp [DotDims.lhsIdx, D, dot_S40x256_S40x3840_S256x3840_0_0_1_1_n_n]; rfl
theorem D_r0 (i : S256x3840.Idx) (q : D.contr.Idx) : (D.rhsIdx i q 0).val = (q ⟨0, by decide⟩).val := by
  simp [DotDims.rhsIdx, D, dot_S40x256_S40x3840_S256x3840_0_0_1_1_n_n]; rfl
theorem D_r1 (i : S256x3840.Idx) (q : D.contr.Idx) : (D.rhsIdx i q 1).val = (i 1).val := by
  simp [DotDims.rhsIdx, D, dot_S40x256_S40x3840_S256x3840_0_0_1_1_n_n]; rfl

/-- One of the body's two products at an entry: column p of the [40, 256] tile against column q of the pattern matrix. -/
theorem prod_apply (L : FVec Ideal S40x256 .f32) (R : FVec Ideal S40x3840 .f32) (p : Fin 256) (q : Fin 3840) :
    matmul D none L R (constant (F := Ideal) S256x3840 .f32 0x00000000#32) (ix2 p q) = ∑ k : Fin 40, L (ix2 k p) * R (ix2 k q) :=
  Cert.MatmulCols.matmul_cols_cols D D_rank D_size D_l0 D_l1 D_r0 D_r1 none L R p q

/-- The stored tile at entry (p, q). -/
theorem pay_apply (x0 : Vec Ideal S40x256 .f32) (x2 : Vec Ideal S40x3840 .f32) (x1 : Vec Ideal S40x256 .f32)
    (x3 : Vec Ideal S40x3840 .f32) (x4 : Vec Ideal S1x3840 .f32) (p : Fin 256) (q : Fin 3840) :
    k0_pay1 (F := Ideal) x0 x2 x1 x3 x4 (ix2 p q)
      = ((∑ k : Fin 40, x0 (ix2 k p) * x2 (ix2 k q)) + (∑ k : Fin 40, x1 (ix2 k p) * x3 (ix2 k q))) + x4 (ix2 (0 : Fin 1) q) := by
  unfold k0_pay1
  simp only [shapeCast_self]
  show (matmul D none x0 x2 (constant (F := Ideal) S256x3840 .f32 0x00000000#32) (ix2 p q)
      + matmul D none x1 x3 (constant (F := Ideal) S256x3840 .f32 0x00000000#32) (ix2 p q))
      + broadcastTo S256x3840 x4 broadcasts_S1x3840_S256x3840 (ix2 p q) = _
  rw [prod_apply, prod_apply, broadcastTo_1b_ab_apply]

end Cert.KernelIdeal.Tile

end
-- ==== Proof.KTile.lean ====
/-
  One tile of the output.

  The output is cut into tiles of 256 rows by 3840 columns; a tile's columns are the 96-lane groups of 40 consecutive
  nodes (3840 = 40 · 96).  So entry (p, q) of tile (bi, nj) is output entry (bi · 256 + p, nj · 3840 + q), whose node
  is nj · 40 + q / 96 and whose lane is q % 96: the tile's own column number decides the piece.

  `tile_point` is the body's stored value at that entry, given what its five loaded blocks hold: the transposed
  value and mask blocks (rows = the tile's 40 nodes), the two pattern matrices, and the tile's row of node embeddings.
  The two sums each keep their one term and the three summands are the three pieces of the specification.
-/
import proofs.«154151_g28037546508343_cont_9to1_1400_6_alg».proof.Proof.Spec
import proofs.«154151_g28037546508343_cont_9to1_1400_6_alg».proof.Proof.KSum
import proofs.«154151_g28037546508343_cont_9to1_1400_6_alg».proof.Proof.KPayload

noncomputable section

namespace Cert.KernelIdeal.Tile

open Cert.KernelIdeal Cert.KernelIdeal.Gen Idealize.ShloMosaic Idealize.ShloMosaic.ValueIdx

/-- The specification at entry q of a tile's column range nj. -/
theorem G_tile (xarr marr : FVec Ideal ⟨2, ![1024, 1000]⟩ .f32) (tab : FVec Ideal ⟨2, ![1000, 32]⟩ .f32)
    (ce : FVec Ideal ⟨3, ![1, 1, 32]⟩ .f32) (b : Fin 1024) (nj q : ℕ) (hnj : nj < 25) (hq : q < 3840) :
    Cert.Embed.G xarr marr tab ce (ix2 b (⟨nj * 3840 + q, by omega⟩ : Fin 96000))
      = if q % 96 < 32 then xarr (ix2 b (⟨nj * 40 + q / 96, by omega⟩ : Fin 1000))
        else if q % 96 < 64 then tab (ix2 (⟨nj * 40 + q / 96, by omega⟩ : Fin 1000) (⟨q % 96 % 32, Nat.mod_lt _ (by decide)⟩ : Fin 32))
        else ce (ix3 (0 : Fin 1) (0 : Fin 1) (⟨q % 96 % 32, Nat.mod_lt _ (by decide)⟩ : Fin 32))
              * marr (ix2 b (⟨nj * 40 + q / 96, by omega⟩ : Fin 1000)) := by
  rw [Cert.Embed.G_apply]
  have e1 : (nj * 3840 + q) % 96 = q % 96 := by omega
  have e2 : (nj * 3840 + q) / 96 = nj * 40 + q / 96 := by omega
  have hn : Cert.Embed.node (⟨nj * 3840 + q, by omega⟩ : Fin 96000) = (⟨nj * 40 + q / 96, by omega⟩ : Fin 1000) := Fin.ext e2
  have hl : Cert.Embed.lane (⟨nj * 3840 + q, by omega⟩ : Fin 96000) = (⟨q % 96 % 32, Nat.mod_lt _ (by decide)⟩ : Fin 32) :=
    Fin.ext (by show (nj * 3840 + q) % 96 % 32 = q % 96 % 32; rw [e1])
  rw [hn, hl]
  show (if (nj * 3840 + q) % 96 < 32 then _ else if (nj * 3840 + q) % 96 < 64 then _ else _) = _
  rw [e1]

/-- The body's stored value at entry (p, q) of tile (bi, nj) is the specification at (bi · 256 + p, nj · 3840 + q). -/
theorem tile_point (xarr marr : FVec Ideal ⟨2, ![1024, 1000]⟩ .f32) (tab : FVec Ideal ⟨2, ![1000, 32]⟩ .f32)
    (ce : FVec Ideal ⟨3, ![1, 1, 32]⟩ .f32)
    (x0 x1 : Vec Ideal S40x256 .f32) (x2 x3 : Vec Ideal S40x3840 .f32) (x4 : Vec Ideal S1x3840 .f32)
    (bi nj : ℕ) (hbi : bi < 4) (hnj : nj < 25)
    (h0 : ∀ (k : Fin 40) (p : Fin 256), x0 (ix2 k p)
        = xarr (ix2 (⟨bi * 256 + p.val, by omega⟩ : Fin 1024) (⟨nj * 40 + k.val, by omega⟩ : Fin 1000)))
    (h1 : ∀ (k : Fin 40) (p : Fin 256), x1 (ix2 k p)
        = marr (ix2 (⟨bi * 256 + p.val, by omega⟩ : Fin 1024) (⟨nj * 40 + k.val, by omega⟩ : Fin 1000)))
    (h2 : ∀ (k : Fin 40) (q : Fin 3840), x2 (ix2 k q) = if q.val / 96 = k.val ∧ q.val % 96 < 32 then (1 : EReal) else 0)
    (h3 : ∀ (k : Fin 40) (q : Fin 3840), x3 (ix2 k q)
        = if q.val / 96 = k.val ∧ 64 ≤ q.val % 96 then ce (ix3 (0 : Fin 1) (0 : Fin 1) (⟨q.val % 96 % 32, Nat.mod_lt _ (by decide)⟩ : Fin 32)) else 0)
    (h4 : ∀ (q : Fin 3840), x4 (ix2 (0 : Fin 1) q)
        = if q.val % 96 / 32 = 1 then tab (ix2 (⟨nj * 40 + q.val / 96, by omega⟩ : Fin 1000) (⟨q.val % 96 % 32, Nat.mod_lt _ (by decide)⟩ : Fin 32)) else 0)
    (p : Fin 256) (q : Fin 3840) :
    k0_pay1 (F := Ideal) x0 x2 x1 x3 x4 (ix2 p q)
      = Cert.Embed.G xarr marr tab ce (ix2 (⟨bi * 256 + p.val, by omega⟩ : Fin 1024) (⟨nj * 3840 + q.val, by omega⟩ : Fin 96000)) := by
  rw [pay_apply, G_tile xarr marr tab ce _ nj q.val hnj q.isLt]
  simp only [h0, h1, h2, h3, h4]
  exact Cert.Embed.tile_entry
    (fun k => xarr (ix2 (⟨bi * 256 + p.val, by omega⟩ : Fin 1024) (⟨nj * 40 + k.val, by omega⟩ : Fin 1000)))
    (fun k => marr (ix2 (⟨bi * 256 + p.val, by omega⟩ : Fin 1024) (⟨nj * 40 + k.val, by omega⟩ : Fin 1000)))
    (q.val / 96) (by omega) (q.val % 96) (Nat.mod_lt _ (by decide))
    (ce (ix3 (0 : Fin 1) (0 : Fin 1) (⟨q.val % 96 % 32, Nat.mod_lt _ (by decide)⟩ : Fin 32)))
    (tab (ix2 (⟨nj * 40 + q.val / 96, by omega⟩ : Fin 1000) (⟨q.val % 96 % 32, Nat.mod_lt _ (by decide)⟩ : Fin 32)))

end Cert.KernelIdeal.Tile

end
-- ==== Proof.KBlocks.lean ====
/-
  From tiles to the whole array.

  Grid point t works on tile (bi, nj) of the output, where (bi, nj) is the output window's block index at t.  The
  transposed value and mask windows sit at block (nj, bi) (40 nodes by 256 batch rows), the two pattern matrices are
  one block each, always block (0, 0), and the node-embedding row sits at block (0, nj).  A block's entry sits in its
  array at block index × block size + the entry's coordinate, on each axis.  So at every point the five loaded blocks
  hold exactly what the tile lemma asks, what the point writes back is the specification read through the output
  block, the 4 × 25 output blocks cover the [1024, 96000] array, and after the run the array is the specification.
-/
import proofs.«154151_g28037546508343_cont_9to1_1400_6_alg».proof.Proof.Gen.KernelIdeal.Value
import proofs.«154151_g28037546508343_cont_9to1_1400_6_alg».proof.Proof.KHostPost
import proofs.«154151_g28037546508343_cont_9to1_1400_6_alg».proof.Proof.KTile

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Host Cert.KernelIdeal.Tile

variable (m : (ℓ : Loc nD τ sig) → Buf (Elt Ideal) ℓ) (ρ : Dev nD → PrngReg)

/-- The output array the run must leave: the embedding row of the argument arrays as launched. -/
abbrev spec (c : Dev nD) : S1024x96000.Idx → EReal :=
  Cert.Embed.G (m ((c : Thread nD τ).loc main_arg0)) (m ((c : Thread nD τ).loc main_arg1))
    (m ((c : Thread nD τ).loc main_arg2)) (m ((c : Thread nD τ).loc main_arg3))

theorem hz : (![0, 0] : Fin 2 → Nat) = fun _ => 0 := funext fun a => by fin_cases a <;> rfl

/-- The printed index maps, decided over the 100 grid points: where each input window's block sits relative to the
    output window's, and the output's block indices' ranges. -/
theorem idx_facts : ∀ t : Fin cfg0.N,
    win0_0.index t (0 : Fin 2) = win0_5.index t (1 : Fin 2) ∧ win0_0.index t (1 : Fin 2) = win0_5.index t (0 : Fin 2)
    ∧ win0_1.index t (0 : Fin 2) = win0_5.index t (1 : Fin 2) ∧ win0_1.index t (1 : Fin 2) = win0_5.index t (0 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = win0_5.index t (1 : Fin 2)
    ∧ win0_5.index t (0 : Fin 2) < 4 ∧ win0_5.index t (1 : Fin 2) < 25 :=
  (by decide +kernel : ∀ t : Fin grid0.N, _)

/-- Every output block is some point's. -/
theorem idx_onto : ∀ (q0 : Fin 4) (q1 : Fin 25), ∃ t : Fin cfg0.N, win0_5.index t = ![q0.val, q1.val] :=
  (by decide +kernel : ∀ (q0 : Fin 4) (q1 : Fin 25), ∃ t : Fin grid0.N, win0_5.index t = ![q0.val, q1.val])

/-! ## The five input blocks at a point -/

/-- The transposed value block: row k, column p is x(bi · 256 + p, nj · 40 + k). -/
theorem blk0 (c : Dev nD) (t : Fin cfg0.N) (hb : win0_5.index t (0 : Fin 2) < 4) (hn : win0_5.index t (1 : Fin 2) < 25)
    (k : Fin 40) (p : Fin 256) :
    iblk m c 0 t (ix2 k p) = (m ((c : Thread nD τ).loc main_arg0) : S1024x1000.Idx → EReal)
      (ix2 (⟨win0_5.index t (0 : Fin 2) * 256 + p.val, by omega⟩ : Fin 1024) (⟨win0_5.index t (1 : Fin 2) * 40 + k.val, by omega⟩ : Fin 1000)) := by
  obtain ⟨e00, e01, -⟩ := idx_facts t
  show V m c main_v41 (((cfg0.win 0).blk t).view.emb (ix2 k p)) = _
  have h : ((cfg0.win 0).blk t).view.emb (ix2 k p)
      = ix2 (⟨win0_5.index t (1 : Fin 2) * 40 + k.val, by omega⟩ : Fin 1000) (⟨win0_5.index t (0 : Fin 2) * 256 + p.val, by omega⟩ : Fin 1024) := by
    funext a; apply Fin.ext
    match a with
    | ⟨0, _⟩ => show win0_0.index t (0 : Fin 2) * 40 + 1 * k.val = win0_5.index t (1 : Fin 2) * 40 + k.val; omega
    | ⟨1, _⟩ => show win0_0.index t (1 : Fin 2) * 256 + 1 * p.val = win0_5.index t (0 : Fin 2) * 256 + p.val; omega
  rw [h]
  exact V_xt m c _ _

/-- The transposed mask block, likewise. -/
theorem blk1 (c : Dev nD) (t : Fin cfg0.N) (hb : win0_5.index t (0 : Fin 2) < 4) (hn : win0_5.index t (1 : Fin 2) < 25)
    (k : Fin 40) (p : Fin 256) :
    iblk m c 1 t (ix2 k p) = (m ((c : Thread nD τ).loc main_arg1) : S1024x1000.Idx → EReal)
      (ix2 (⟨win0_5.index t (0 : Fin 2) * 256 + p.val, by omega⟩ : Fin 1024) (⟨win0_5.index t (1 : Fin 2) * 40 + k.val, by omega⟩ : Fin 1000)) := by
  obtain ⟨-, -, e10, e11, -⟩ := idx_facts t
  show V m c main_v42 (((cfg0.win 1).blk t).view.emb (ix2 k p)) = _
  have h : ((cfg0.win 1).blk t).view.emb (ix2 k p)
      = ix2 (⟨win0_5.index t (1 : Fin 2) * 40 + k.val, by omega⟩ : Fin 1000) (⟨win0_5.index t (0 : Fin 2) * 256 + p.val, by omega⟩ : Fin 1024) := by
    funext a; apply Fin.ext
    match a with
    | ⟨0, _⟩ => show win0_1.index t (0 : Fin 2) * 40 + 1 * k.val = win0_5.index t (1 : Fin 2) * 40 + k.val; omega
    | ⟨1, _⟩ => show win0_1.index t (1 : Fin 2) * 256 + 1 * p.val = win0_5.index t (0 : Fin 2) * 256 + p.val; omega
  rw [h]
  exact V_mt m c _ _

/-- The value lanes' pattern matrix: its one block is the whole matrix. -/
theorem blk2 (c : Dev nD) (t : Fin cfg0.N) (k : Fin 40) (q : Fin 3840) :
    iblk m c 2 t (ix2 k q) = if q.val / 96 = k.val ∧ q.val % 96 < 32 then (1 : EReal) else 0 := by
  obtain ⟨-, -, -, -, e20, e21, -⟩ := idx_facts t
  show V m c main_v15 (((cfg0.win 2).blk t).view.emb (ix2 k q)) = _
  have h : ((cfg0.win 2).blk t).view.emb (ix2 k q) = ix2 k q := by
    funext a; apply Fin.ext
    match a with
    | ⟨0, _⟩ => show win0_2.index t (0 : Fin 2) * 40 + 1 * k.val = k.val; omega
    | ⟨1, _⟩ => show win0_2.index t (1 : Fin 2) * 3840 + 1 * q.val = q.val; omega
  rw [h]
  exact V_wx m c k q

/-- The condition lanes' pattern matrix, likewise. -/
theorem blk3 (c : Dev nD) (t : Fin cfg0.N) (k : Fin 40) (q : Fin 3840) :
    iblk m c 3 t (ix2 k q) = if q.val / 96 = k.val ∧ 64 ≤ q.val % 96
      then (m ((c : Thread nD τ).loc main_arg3) : S1x1x32.Idx → EReal) (ix3 (0 : Fin 1) (0 : Fin 1) (⟨q.val % 96 % 32, Nat.mod_lt _ (by decide)⟩ : Fin 32))
      else (0 : EReal) := by
  obtain ⟨-, -, -, -, -, -, e30, e31, -⟩ := idx_facts t
  show V m c main_v36 (((cfg0.win 3).blk t).view.emb (ix2 k q)) = _
  have h : ((cfg0.win 3).blk t).view.emb (ix2 k q) = ix2 k q := by
    funext a; apply Fin.ext
    match a with
    | ⟨0, _⟩ => show win0_3.index t (0 : Fin 2) * 40 + 1 * k.val = k.val; omega
    | ⟨1, _⟩ => show win0_3.index t (1 : Fin 2) * 3840 + 1 * q.val = q.val; omega
  rw [h]
  exact V_wm m c k q

/-- The tile's row of node embeddings. -/
theorem blk4 (c : Dev nD) (t : Fin cfg0.N) (hn : win0_5.index t (1 : Fin 2) < 25) (q : Fin 3840) :
    iblk m c 4 t (ix2 (0 : Fin 1) q) = if q.val % 96 / 32 = 1
      then (m ((c : Thread nD τ).loc main_arg2) : S1000x32.Idx → EReal)
        (ix2 (⟨win0_5.index t (1 : Fin 2) * 40 + q.val / 96, by omega⟩ : Fin 1000) (⟨q.val % 96 % 32, Nat.mod_lt _ (by decide)⟩ : Fin 32))
      else (0 : EReal) := by
  obtain ⟨-, -, -, -, -, -, -, -, e40, e41, -⟩ := idx_facts t
  show V m c main_v40 (((cfg0.win 4).blk t).view.emb (ix2 (0 : Fin 1) q)) = _
  have h : ((cfg0.win 4).blk t).view.emb (ix2 (0 : Fin 1) q)
      = ix2 (0 : Fin 1) (⟨win0_5.index t (1 : Fin 2) * 3840 + q.val, by omega⟩ : Fin 96000) := by
    funext a; apply Fin.ext
    match a with
    | ⟨0, _⟩ => show win0_4.index t (0 : Fin 2) * 1 + 1 * 0 = 0; omega
    | ⟨1, _⟩ => show win0_4.index t (1 : Fin 2) * 3840 + 1 * q.val = win0_5.index t (1 : Fin 2) * 3840 + q.val; omega
  rw [h]
  exact V_t m c _ q.val hn q.isLt

/-! ## What a point writes back, the cover, the array -/

/-- What point t writes back is the specification read through the output block. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold out0_5
  rw [View.canon_unit_zero hz]
  simp only [View.ld_unit_zero (S := S40x256) hz, View.ld_unit_zero (S := S40x3840) hz, View.ld_unit_zero (S := S1x3840) hz]
  obtain ⟨-, -, -, -, -, -, -, -, -, -, hb, hn⟩ := idx_facts t
  funext j
  show k0_pay1 (F := Ideal) (iblk m c 0 t) (iblk m c 2 t) (iblk m c 1 t) (iblk m c 3 t) (iblk m c 4 t) j
    = spec m c (((cfg0.win 5).blk t).view.emb j)
  have hj0 : (j 0).val < 256 := (j 0).isLt
  have hj1 : (j 1).val < 3840 := (j 1).isLt
  have hemb : ((cfg0.win 5).blk t).view.emb j
      = ix2 (⟨win0_5.index t (0 : Fin 2) * 256 + (j 0).val, by omega⟩ : Fin 1024)
          (⟨win0_5.index t (1 : Fin 2) * 3840 + (j 1).val, by omega⟩ : Fin 96000) := by
    funext a; apply Fin.ext
    match a with
    | ⟨0, _⟩ => show win0_5.index t (0 : Fin 2) * 256 + 1 * (j 0).val = win0_5.index t (0 : Fin 2) * 256 + (j 0).val; omega
    | ⟨1, _⟩ => show win0_5.index t (1 : Fin 2) * 3840 + 1 * (j 1).val = win0_5.index t (1 : Fin 2) * 3840 + (j 1).val; omega
  rw [hemb]
  refine (congrArg (k0_pay1 (F := Ideal) (iblk m c 0 t) (iblk m c 2 t) (iblk m c 1 t) (iblk m c 3 t) (iblk m c 4 t)) (eq_ix2 j)).trans ?_
  exact tile_point (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (iblk m c 4 t)
    (win0_5.index t (0 : Fin 2)) (win0_5.index t (1 : Fin 2)) hb hn
    (blk0 m c t hb hn) (blk1 m c t hb hn) (blk2 m c t) (blk3 m c t) (blk4 m c t hn) (j 0) (j 1)

/-- An index of the array is in point t's block iff each coordinate is in the block's range on its axis. -/
theorem mem_blk (t : Fin cfg0.N) (i : S1024x96000.Idx) :
    i ∈ ((cfg0.win 5).blk t).view.set ↔ ∀ a : Fin 2, win0_5.index t a * S256x3840.size a ≤ (i a).val
      ∧ (i a).val < win0_5.index t a * S256x3840.size a + S256x3840.size a := by
  show i ∈ ((View.whole main_v43).slice (win0_5.rect t)).set ↔ _
  rw [View.set_slice_whole, Rect.mem_set_unit]
  exact Iff.rfl

/-- Every index of the array is in some point's block: row r is in block r / 256, column c in block c / 3840. -/
theorem cover (i : S1024x96000.Idx) : ∃ t : Fin cfg0.N, (cfg0.win 5).flush t = true ∧ i ∈ ((cfg0.win 5).blk t).view.set := by
  have hi0 : (i 0).val < 1024 := (i 0).isLt
  have hi1 : (i 1).val < 96000 := (i 1).isLt
  obtain ⟨t, ht⟩ := idx_onto ⟨(i 0).val / 256, by omega⟩ ⟨(i 1).val / 3840, by omega⟩
  have q0 : win0_5.index t (0 : Fin 2) = (i 0).val / 256 := congrFun ht 0
  have q1 : win0_5.index t (1 : Fin 2) = (i 1).val / 3840 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 3840 ≤ (i 1).val ∧ (i 1).val < win0_5.index t (1 : Fin 2) * 3840 + 3840; omega

/-- The output array after the run is the specification. -/
theorem final (c : Dev nD) : (dats m 0 c).arrAt 5 cfg0.N = spec m c :=
  (dats m 0 c).arrAt_eq_of_cover 5 (spec m c) (fun t _ => flushed_eq m c t) cover

/-- The kernel's run: every weakly fair execution terminates with the result array at the specification and the
    argument arrays unchanged. -/
theorem run : θ_run defs (onTc (τ := τ) (main (F := Ideal))) ⟨m, fun _ => 0, ρ⟩ fun r => ∀ c : Dev nD,
      r.2.mem ((c : Thread nD τ).loc main_v43) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Blocks

end
-- ==== Proof.RefRun.lean ====
/-
  The reference's @main as ONE straight line of host operations, the two module-local functions it calls unfolded at
  their call sites over the calls' own buffers (the index normalisation and the in-bounds mask of the row lookup, the
  lookup itself, the select), and its run: every weakly fair execution terminates with each buffer at the fold of the
  operations' results over the launch contents.
-/
import proofs.«154151_g28037546508343_cont_9to1_1400_6_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's thirty-four operations in order, the calls unfolded: five of @main (the value's two broadcasts, the node
    numbers and their two broadcasts), the row lookup's twenty-three (six normalising the index, the select between the
    shifted and the plain index, sixteen for the in-bounds mask, the lookup and the final select), then @main's last six
    (the mask's two broadcasts, the condition row's broadcast, the product, the concatenation, the reshape). -/
abbrev ops : List (HloOp τ sig (Elt F)) :=
  [ unary main_arg0 main_v0 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_v0 main_v1 (broadcastInDim S1024x1000x32 ![0, 1, 2] bcast_S1024x1000x1_S1024x1000x32_0_1_2 : (⟨S1024x1000x1, .f32⟩ : BufTy).Contents (Elt F) → (⟨S1024x1000x32, .f32⟩ : BufTy).Contents (Elt F)),
    nullary main_v2 (iotaInDim S1000 32 0),
    unary main_v2 main_v3 (broadcastInDim S1x1000 ![1] bcast_S1000_S1x1000_1 : (⟨S1000, .i32⟩ : BufTy).Contents (Elt F) → (⟨S1x1000, .i32⟩ : BufTy).Contents (Elt F)),
    unary main_v3 main_v4 (broadcastInDim S1024x1000 ![0, 1] bcast_S1x1000_S1024x1000_0_1 : (⟨S1x1000, .i32⟩ : BufTy).Contents (Elt F) → (⟨S1024x1000, .i32⟩ : BufTy).Contents (Elt F)),
    TRef.nullary main_call0.c (constantI S_ 32 0#32),
    TRef.unary main_call0.c main_call0.v0 (broadcastInDim S1024x1000 ![] bcast_S_S1024x1000),
    TRef.binary (.of main_v4) main_call0.v0 main_call0.v1 (cmpi .slt),
    TRef.nullary main_call0.c_0 (constantI S_ 32 1000#32),
    TRef.unary main_call0.c_0 main_call0.v2 (broadcastInDim S1024x1000 ![] bcast_S_S1024x1000),
    TRef.binary (.of main_v4) main_call0.v2 main_call0.v3 addi,
    TRef.ternary main_call0.v1 main_call0.v3 (.of main_v4) main_call0.call0.v0 select,
    TRef.unary main_call0.call0.v0 main_call0.v5 (broadcastInDim S1024x1000x1 ![0, 1] bcast_S1024x1000_S1024x1000x1_0_1),
    TRef.nullary main_call0.c_1 (constantI S1 32 999#32),
    TRef.nullary main_call0.c_2 (constantI S_ 32 0#32),
    TRef.unary main_call0.c_2 main_call0.v6 (broadcastInDim S1024x1000x1 ![] bcast_S_S1024x1000x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x1000x1 ![0, 1, 2] bcast_S1x1x1_S1024x1000x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1000x1_S1024x1000_d2 h_S_),
    TRef.binary (.of main_arg2) main_call0.v5 main_call0.v13 (fun x i => Host.gather gather_S1000x32_S1024x1000x1_S1024x1000x32_2_0_n_n_0_2_132 x i),
    TRef.unary main_call0.v12 main_call0.v14 (broadcastInDim S1024x1000x32 ![0, 1] bcast_S1024x1000_S1024x1000x32_0_1),
    TRef.nullary main_call0.cst (constant S_ .f32 0x7FC00000#32),
    TRef.unary main_call0.cst main_call0.v15 (broadcastInDim S1024x1000x32 ![] bcast_S_S1024x1000x32),
    TRef.ternary main_call0.v14 main_call0.v13 main_call0.v15 main_call0.v16 select,
    unary main_arg1 main_v6 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_arg3 main_v7 (broadcastInDim S1024x1000x32 ![0, 1, 2] bcast_S1x1x32_S1024x1000x32_0_1_2 : (⟨S1x1x32, .f32⟩ : BufTy).Contents (Elt F) → (⟨S1024x1000x32, .f32⟩ : BufTy).Contents (Elt F)),
    unary main_v6 main_v8 (broadcastInDim S1024x1000x32 ![0, 1, 2] bcast_S1024x1000x1_S1024x1000x32_0_1_2 : (⟨S1024x1000x1, .f32⟩ : BufTy).Contents (Elt F) → (⟨S1024x1000x32, .f32⟩ : BufTy).Contents (Elt F)),
    binary main_v7 main_v8 main_v9 (mulf : (⟨S1024x1000x32, .f32⟩ : BufTy).Contents (Elt F) → (⟨S1024x1000x32, .f32⟩ : BufTy).Contents (Elt F) → (⟨S1024x1000x32, .f32⟩ : BufTy).Contents (Elt F)),
    nary ![main_v1, main_v5, main_v9] main_v10 (fun u => concatenate S1024x1000x96 2 [⟨S1024x1000x32, u 0⟩, ⟨S1024x1000x32, u 1⟩, ⟨S1024x1000x32, u 2⟩] concatenates_S1024x1000x32_S1024x1000x32_S1024x1000x32_S1024x1000x96_d2),
    reshape main_v10 main_v11 rfl shapeCasts_S1024x1000x96_S1024x96000 ]

set_option maxRecDepth 1024 in
/-- @main is that straight line: the two functions unfolded at their calls and the records at their fields, both sides
    are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., unary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    unary_bufs_sub .., unary_bufs_sub .., unary_bufs_sub .., binary_bufs_sub .., nary_bufs_sub .., reshape_bufs_sub ..⟩

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibNary3.lean ====
/-
  Two general facts about a straight line of host operations: two stretches run one after the other are their
  concatenation run as one; and a host operation with THREE operands given as a literal family (a concatenation of
  three arrays) leaves, at its result, its function of the three operands' contents, each read at its own reference.
-/
import Idealize.ShloMosaic.Lib.StableHlo.Run

noncomputable section

namespace Cert.Nary3

open Idealize.ShloMosaic Idealize.ShloMosaic.StableHlo

variable {τ : Topo} {sig : RefSig} {Val : EltTy → Type} {x a b y : Ref sig .tc}

/-- Two stretches of operations run one after the other. -/
theorem after_append (A B : List (HloOp τ sig Val)) (V : Valuation τ sig Val) :
    StableHlo.after (A ++ B) V = StableHlo.after B (StableHlo.after A V) := by
  induction A generalizing V with
  | nil => rfl
  | cons op A ih => exact ih _

/-- A three-operand operation leaves, at its result, its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Nary3

end
-- ==== Proof.RefTerm.lean ====
/-
  What the reference leaves in its result buffer, as ONE term of the four argument arrays, cut into named pieces: the
  node numbers as the lookup's start indices, the lookup's in-bounds mask, the looked-up rows, the three 32-lane pieces
  and their concatenation reshaped. The fold of the operations at the result buffer is that term, and the arguments'
  buffers are left as they were.
-/
import proofs.«154151_g28037546508343_cont_9to1_1400_6_alg».proof.Proof.RefRun
import proofs.«154151_g28037546508343_cont_9to1_1400_6_alg».proof.Proof.LibNary3

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The node number `n` at every `(b, n)`: the iota along the node axis, broadcast over the batch. -/
def nodeIdx : IVec S1024x1000 32 :=
  broadcastInDim S1024x1000 ![0, 1] bcast_S1x1000_S1024x1000_0_1
    (broadcastInDim S1x1000 ![1] bcast_S1000_S1x1000_1 (iotaInDim S1000 32 0))

/-- The lookup's index normalisation: a negative index is shifted up by the table's 1000 rows. -/
def normIdx : IVec S1024x1000 32 :=
  select (cmpi .slt nodeIdx (broadcastInDim S1024x1000 ![] bcast_S_S1024x1000 (constantI S_ 32 0#32)))
    (addi nodeIdx (broadcastInDim S1024x1000 ![] bcast_S_S1024x1000 (constantI S_ 32 1000#32))) nodeIdx

/-- The start indices of the lookup, one index vector of length one per `(b, n)`. -/
def startIdx : IVec S1024x1000x1 32 :=
  broadcastInDim S1024x1000x1 ![0, 1] bcast_S1024x1000_S1024x1000x1_0_1 normIdx

/-- The lookup's in-bounds mask: at `(b, n)`, whether the start index lies in `[0, 999]`. -/
def inBounds : IVec S1024x1000 1 :=
  Host.reduce IntOp.andi
    (andi (cmpi .sge startIdx (broadcastInDim S1024x1000x1 ![] bcast_S_S1024x1000x1 (constantI S_ 32 0#32)))
      (cmpi .sle startIdx (broadcastInDim S1024x1000x1 ![0, 1, 2] bcast_S1x1x1_S1024x1000x1_0_1_2
        (broadcastInDim S1x1x1 ![2] bcast_S1_S1x1x1_2 (constantI S1 32 999#32)))))
    (constantI S_ 1 1#1) reducesTo_S1024x1000x1_S1024x1000_d2 h_S_

/-- The looked-up rows: the table's row at the start index where it is in bounds, a fixed constant elsewhere. -/
def rows (tab : FVec F S1000x32 .f32) : FVec F S1024x1000x32 .f32 :=
  select (broadcastInDim S1024x1000x32 ![0, 1] bcast_S1024x1000_S1024x1000x32_0_1 inBounds)
    (Host.gather gather_S1000x32_S1024x1000x1_S1024x1000x32_2_0_n_n_0_2_132 tab startIdx)
    (broadcastInDim S1024x1000x32 ![] bcast_S_S1024x1000x32 (constant S_ .f32 0x7FC00000#32))

/-- The first piece: the value `x b n` on all 32 lanes. -/
def vals (x : FVec F S1024x1000 .f32) : FVec F S1024x1000x32 .f32 :=
  broadcastInDim S1024x1000x32 ![0, 1, 2] bcast_S1024x1000x1_S1024x1000x32_0_1_2
    (broadcastInDim S1024x1000x1 ![0, 1] bcast_S1024x1000_S1024x1000x1_0_1 x)

/-- The third piece: the condition row times the mask `mask b n`. -/
def cond (mask : FVec F S1024x1000 .f32) (ce : FVec F S1x1x32 .f32) : FVec F S1024x1000x32 .f32 :=
  mulf (broadcastInDim S1024x1000x32 ![0, 1, 2] bcast_S1x1x32_S1024x1000x32_0_1_2 ce)
    (broadcastInDim S1024x1000x32 ![0, 1, 2] bcast_S1024x1000x1_S1024x1000x32_0_1_2
      (broadcastInDim S1024x1000x1 ![0, 1] bcast_S1024x1000_S1024x1000x1_0_1 mask))

/-- The three pieces side by side along the lane axis, 96 lanes per node. -/
def cat (x mask : FVec F S1024x1000 .f32) (tab : FVec F S1000x32 .f32) (ce : FVec F S1x1x32 .f32) :
    FVec F S1024x1000x96 .f32 :=
  concatenate S1024x1000x96 2 [⟨S1024x1000x32, vals x⟩, ⟨S1024x1000x32, rows tab⟩, ⟨S1024x1000x32, cond mask ce⟩]
    concatenates_S1024x1000x32_S1024x1000x32_S1024x1000x32_S1024x1000x96_d2

/-- The result: the nodes' groups of 96 lanes laid end to end in each row. -/
def out (x mask : FVec F S1024x1000 .f32) (tab : FVec F S1000x32 .f32) (ce : FVec F S1x1x32 .f32) :
    FVec F S1024x96000 .f32 :=
  shapeCast S1024x96000 (cat x mask tab ce) shapeCasts_S1024x1000x96_S1024x96000

/-! ## The same line over the buffers themselves

The two functions' operations are stated over typed references; at a call's literal buffers the transport of contents
along the buffer's type is the identity, so each is the plain operation over the buffers. One equation per operation of
the two functions, in order, then the whole list. -/

/-- @main's thirty-four operations, each over the buffers themselves. -/
abbrev opsP : List (HloOp τ sig (Elt F)) :=
  [ unary main_arg0 main_v0 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_v0 main_v1 (broadcastInDim S1024x1000x32 ![0, 1, 2] bcast_S1024x1000x1_S1024x1000x32_0_1_2 : (⟨S1024x1000x1, .f32⟩ : BufTy).Contents (Elt F) → (⟨S1024x1000x32, .f32⟩ : BufTy).Contents (Elt F)),
    nullary main_v2 (iotaInDim S1000 32 0),
    unary main_v2 main_v3 (broadcastInDim S1x1000 ![1] bcast_S1000_S1x1000_1 : (⟨S1000, .i32⟩ : BufTy).Contents (Elt F) → (⟨S1x1000, .i32⟩ : BufTy).Contents (Elt F)),
    unary main_v3 main_v4 (broadcastInDim S1024x1000 ![0, 1] bcast_S1x1000_S1024x1000_0_1 : (⟨S1x1000, .i32⟩ : BufTy).Contents (Elt F) → (⟨S1024x1000, .i32⟩ : BufTy).Contents (Elt F)),
    nullary main_call0_c (constantI S_ 32 0#32),
    unary main_call0_c main_call0_v0 (broadcastInDim S1024x1000 ![] bcast_S_S1024x1000 : (⟨S_, .i32⟩ : BufTy).Contents (Elt F) → (⟨S1024x1000, .i32⟩ : BufTy).Contents (Elt F)),
    binary main_v4 main_call0_v0 main_call0_v1 (cmpi .slt : (⟨S1024x1000, .i32⟩ : BufTy).Contents (Elt F) → (⟨S1024x1000, .i32⟩ : BufTy).Contents (Elt F) → (⟨S1024x1000, .i1⟩ : BufTy).Contents (Elt F)),
    nullary main_call0_c_0 (constantI S_ 32 1000#32),
    unary main_call0_c_0 main_call0_v2 (broadcastInDim S1024x1000 ![] bcast_S_S1024x1000 : (⟨S_, .i32⟩ : BufTy).Contents (Elt F) → (⟨S1024x1000, .i32⟩ : BufTy).Contents (Elt F)),
    binary main_v4 main_call0_v2 main_call0_v3 (addi : (⟨S1024x1000, .i32⟩ : BufTy).Contents (Elt F) → (⟨S1024x1000, .i32⟩ : BufTy).Contents (Elt F) → (⟨S1024x1000, .i32⟩ : BufTy).Contents (Elt F)),
    ternary main_call0_v1 main_call0_v3 main_v4 main_call0_v4 (select : (⟨S1024x1000, .i1⟩ : BufTy).Contents (Elt F) → (⟨S1024x1000, .i32⟩ : BufTy).Contents (Elt F) → (⟨S1024x1000, .i32⟩ : BufTy).Contents (Elt F) → (⟨S1024x1000, .i32⟩ : BufTy).Contents (Elt F)),
    unary main_call0_v4 main_call0_v5 (broadcastInDim S1024x1000x1 ![0, 1] bcast_S1024x1000_S1024x1000x1_0_1 : (⟨S1024x1000, .i32⟩ : BufTy).Contents (Elt F) → (⟨S1024x1000x1, .i32⟩ : BufTy).Contents (Elt F)),
    nullary main_call0_c_1 (constantI S1 32 999#32),
    nullary main_call0_c_2 (constantI S_ 32 0#32),
    unary main_call0_c_2 main_call0_v6 (broadcastInDim S1024x1000x1 ![] bcast_S_S1024x1000x1 : (⟨S_, .i32⟩ : BufTy).Contents (Elt F) → (⟨S1024x1000x1, .i32⟩ : BufTy).Contents (Elt F)),
    binary main_call0_v5 main_call0_v6 main_call0_v7 (cmpi .sge : (⟨S1024x1000x1, .i32⟩ : BufTy).Contents (Elt F) → (⟨S1024x1000x1, .i32⟩ : BufTy).Contents (Elt F) → (⟨S1024x1000x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S1024x1000x1 ![0, 1, 2] bcast_S1x1x1_S1024x1000x1_0_1_2 : (⟨S1x1x1, .i32⟩ : BufTy).Contents (Elt F) → (⟨S1024x1000x1, .i32⟩ : BufTy).Contents (Elt F)),
    binary main_call0_v5 main_call0_v9 main_call0_v10 (cmpi .sle : (⟨S1024x1000x1, .i32⟩ : BufTy).Contents (Elt F) → (⟨S1024x1000x1, .i32⟩ : BufTy).Contents (Elt F) → (⟨S1024x1000x1, .i1⟩ : BufTy).Contents (Elt F)),
    binary main_call0_v7 main_call0_v10 main_call0_v11 (andi : (⟨S1024x1000x1, .i1⟩ : BufTy).Contents (Elt F) → (⟨S1024x1000x1, .i1⟩ : BufTy).Contents (Elt F) → (⟨S1024x1000x1, .i1⟩ : BufTy).Contents (Elt F)),
    nullary main_call0_c_3 (constantI S_ 1 1#1),
    binary main_call0_v11 main_call0_c_3 main_call0_v12 (fun (x : (⟨S1024x1000x1, .i1⟩ : BufTy).Contents (Elt F)) (v : (⟨S_, .i1⟩ : BufTy).Contents (Elt F)) => (Host.reduce IntOp.andi x v reducesTo_S1024x1000x1_S1024x1000_d2 h_S_ : (⟨S1024x1000, .i1⟩ : BufTy).Contents (Elt F))),
    binary main_arg2 main_call0_v5 main_call0_v13 (fun (x : (⟨S1000x32, .f32⟩ : BufTy).Contents (Elt F)) (i : (⟨S1024x1000x1, .i32⟩ : BufTy).Contents (Elt F)) => (Host.gather gather_S1000x32_S1024x1000x1_S1024x1000x32_2_0_n_n_0_2_132 x i : (⟨S1024x1000x32, .f32⟩ : BufTy).Contents (Elt F))),
    unary main_call0_v12 main_call0_v14 (broadcastInDim S1024x1000x32 ![0, 1] bcast_S1024x1000_S1024x1000x32_0_1 : (⟨S1024x1000, .i1⟩ : BufTy).Contents (Elt F) → (⟨S1024x1000x32, .i1⟩ : BufTy).Contents (Elt F)),
    nullary main_call0_cst (constant S_ .f32 0x7FC00000#32 : (⟨S_, .f32⟩ : BufTy).Contents (Elt F)),
    unary main_call0_cst main_call0_v15 (broadcastInDim S1024x1000x32 ![] bcast_S_S1024x1000x32 : (⟨S_, .f32⟩ : BufTy).Contents (Elt F) → (⟨S1024x1000x32, .f32⟩ : BufTy).Contents (Elt F)),
    ternary main_call0_v14 main_call0_v13 main_call0_v15 main_v5 (select : (⟨S1024x1000x32, .i1⟩ : BufTy).Contents (Elt F) → (⟨S1024x1000x32, .f32⟩ : BufTy).Contents (Elt F) → (⟨S1024x1000x32, .f32⟩ : BufTy).Contents (Elt F) → (⟨S1024x1000x32, .f32⟩ : BufTy).Contents (Elt F)),
    unary main_arg1 main_v6 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_arg3 main_v7 (broadcastInDim S1024x1000x32 ![0, 1, 2] bcast_S1x1x32_S1024x1000x32_0_1_2 : (⟨S1x1x32, .f32⟩ : BufTy).Contents (Elt F) → (⟨S1024x1000x32, .f32⟩ : BufTy).Contents (Elt F)),
    unary main_v6 main_v8 (broadcastInDim S1024x1000x32 ![0, 1, 2] bcast_S1024x1000x1_S1024x1000x32_0_1_2 : (⟨S1024x1000x1, .f32⟩ : BufTy).Contents (Elt F) → (⟨S1024x1000x32, .f32⟩ : BufTy).Contents (Elt F)),
    binary main_v7 main_v8 main_v9 (mulf : (⟨S1024x1000x32, .f32⟩ : BufTy).Contents (Elt F) → (⟨S1024x1000x32, .f32⟩ : BufTy).Contents (Elt F) → (⟨S1024x1000x32, .f32⟩ : BufTy).Contents (Elt F)),
    nary ![main_v1, main_v5, main_v9] main_v10 (fun u => concatenate S1024x1000x96 2 [⟨S1024x1000x32, u 0⟩, ⟨S1024x1000x32, u 1⟩, ⟨S1024x1000x32, u 2⟩] concatenates_S1024x1000x32_S1024x1000x32_S1024x1000x32_S1024x1000x96_d2),
    reshape main_v10 main_v11 rfl shapeCasts_S1024x1000x96_S1024x96000 ]

theorem callOp0 : (TRef.nullary main_call0.c (constantI S_ 32 0#32) : HloOp τ sig (Elt F))
    = nullary main_call0_c (constantI S_ 32 0#32) := rfl
theorem callOp1 : (TRef.unary main_call0.c main_call0.v0 (broadcastInDim S1024x1000 ![] bcast_S_S1024x1000) : HloOp τ sig (Elt F))
    = unary main_call0_c main_call0_v0 (broadcastInDim S1024x1000 ![] bcast_S_S1024x1000 : (⟨S_, .i32⟩ : BufTy).Contents (Elt F) → (⟨S1024x1000, .i32⟩ : BufTy).Contents (Elt F)) := rfl
theorem callOp2 : (TRef.binary (.of main_v4) main_call0.v0 main_call0.v1 (cmpi .slt) : HloOp τ sig (Elt F))
    = binary main_v4 main_call0_v0 main_call0_v1 (cmpi .slt : (⟨S1024x1000, .i32⟩ : BufTy).Contents (Elt F) → (⟨S1024x1000, .i32⟩ : BufTy).Contents (Elt F) → (⟨S1024x1000, .i1⟩ : BufTy).Contents (Elt F)) := rfl
theorem callOp3 : (TRef.nullary main_call0.c_0 (constantI S_ 32 1000#32) : HloOp τ sig (Elt F))
    = nullary main_call0_c_0 (constantI S_ 32 1000#32) := rfl
theorem callOp4 : (TRef.unary main_call0.c_0 main_call0.v2 (broadcastInDim S1024x1000 ![] bcast_S_S1024x1000) : HloOp τ sig (Elt F))
    = unary main_call0_c_0 main_call0_v2 (broadcastInDim S1024x1000 ![] bcast_S_S1024x1000 : (⟨S_, .i32⟩ : BufTy).Contents (Elt F) → (⟨S1024x1000, .i32⟩ : BufTy).Contents (Elt F)) := rfl
theorem callOp5 : (TRef.binary (.of main_v4) main_call0.v2 main_call0.v3 addi : HloOp τ sig (Elt F))
    = binary main_v4 main_call0_v2 main_call0_v3 (addi : (⟨S1024x1000, .i32⟩ : BufTy).Contents (Elt F) → (⟨S1024x1000, .i32⟩ : BufTy).Contents (Elt F) → (⟨S1024x1000, .i32⟩ : BufTy).Contents (Elt F)) := rfl
theorem callOp6 : (TRef.ternary main_call0.v1 main_call0.v3 (.of main_v4) main_call0.call0.v0 select : HloOp τ sig (Elt F))
    = ternary main_call0_v1 main_call0_v3 main_v4 main_call0_v4 (select : (⟨S1024x1000, .i1⟩ : BufTy).Contents (Elt F) → (⟨S1024x1000, .i32⟩ : BufTy).Contents (Elt F) → (⟨S1024x1000, .i32⟩ : BufTy).Contents (Elt F) → (⟨S1024x1000, .i32⟩ : BufTy).Contents (Elt F)) := rfl
theorem callOp7 : (TRef.unary main_call0.call0.v0 main_call0.v5 (broadcastInDim S1024x1000x1 ![0, 1] bcast_S1024x1000_S1024x1000x1_0_1) : HloOp τ sig (Elt F))
    = unary main_call0_v4 main_call0_v5 (broadcastInDim S1024x1000x1 ![0, 1] bcast_S1024x1000_S1024x1000x1_0_1 : (⟨S1024x1000, .i32⟩ : BufTy).Contents (Elt F) → (⟨S1024x1000x1, .i32⟩ : BufTy).Contents (Elt F)) := rfl
theorem callOp8 : (TRef.nullary main_call0.c_1 (constantI S1 32 999#32) : HloOp τ sig (Elt F))
    = nullary main_call0_c_1 (constantI S1 32 999#32) := rfl
theorem callOp9 : (TRef.nullary main_call0.c_2 (constantI S_ 32 0#32) : HloOp τ sig (Elt F))
    = nullary main_call0_c_2 (constantI S_ 32 0#32) := rfl
theorem callOp10 : (TRef.unary main_call0.c_2 main_call0.v6 (broadcastInDim S1024x1000x1 ![] bcast_S_S1024x1000x1) : HloOp τ sig (Elt F))
    = unary main_call0_c_2 main_call0_v6 (broadcastInDim S1024x1000x1 ![] bcast_S_S1024x1000x1 : (⟨S_, .i32⟩ : BufTy).Contents (Elt F) → (⟨S1024x1000x1, .i32⟩ : BufTy).Contents (Elt F)) := rfl
theorem callOp11 : (TRef.binary main_call0.v5 main_call0.v6 main_call0.v7 (cmpi .sge) : HloOp τ sig (Elt F))
    = binary main_call0_v5 main_call0_v6 main_call0_v7 (cmpi .sge : (⟨S1024x1000x1, .i32⟩ : BufTy).Contents (Elt F) → (⟨S1024x1000x1, .i32⟩ : BufTy).Contents (Elt F) → (⟨S1024x1000x1, .i1⟩ : BufTy).Contents (Elt F)) := rfl
theorem callOp12 : (TRef.unary main_call0.c_1 main_call0.v8 (broadcastInDim S1x1x1 ![2] bcast_S1_S1x1x1_2) : HloOp τ sig (Elt F))
    = unary main_call0_c_1 main_call0_v8 (broadcastInDim S1x1x1 ![2] bcast_S1_S1x1x1_2 : (⟨S1, .i32⟩ : BufTy).Contents (Elt F) → (⟨S1x1x1, .i32⟩ : BufTy).Contents (Elt F)) := rfl
theorem callOp13 : (TRef.unary main_call0.v8 main_call0.v9 (broadcastInDim S1024x1000x1 ![0, 1, 2] bcast_S1x1x1_S1024x1000x1_0_1_2) : HloOp τ sig (Elt F))
    = unary main_call0_v8 main_call0_v9 (broadcastInDim S1024x1000x1 ![0, 1, 2] bcast_S1x1x1_S1024x1000x1_0_1_2 : (⟨S1x1x1, .i32⟩ : BufTy).Contents (Elt F) → (⟨S1024x1000x1, .i32⟩ : BufTy).Contents (Elt F)) := rfl
theorem callOp14 : (TRef.binary main_call0.v5 main_call0.v9 main_call0.v10 (cmpi .sle) : HloOp τ sig (Elt F))
    = binary main_call0_v5 main_call0_v9 main_call0_v10 (cmpi .sle : (⟨S1024x1000x1, .i32⟩ : BufTy).Contents (Elt F) → (⟨S1024x1000x1, .i32⟩ : BufTy).Contents (Elt F) → (⟨S1024x1000x1, .i1⟩ : BufTy).Contents (Elt F)) := rfl
theorem callOp15 : (TRef.binary main_call0.v7 main_call0.v10 main_call0.v11 andi : HloOp τ sig (Elt F))
    = binary main_call0_v7 main_call0_v10 main_call0_v11 (andi : (⟨S1024x1000x1, .i1⟩ : BufTy).Contents (Elt F) → (⟨S1024x1000x1, .i1⟩ : BufTy).Contents (Elt F) → (⟨S1024x1000x1, .i1⟩ : BufTy).Contents (Elt F)) := rfl
theorem callOp16 : (TRef.nullary main_call0.c_3 (constantI S_ 1 1#1) : HloOp τ sig (Elt F))
    = nullary main_call0_c_3 (constantI S_ 1 1#1) := rfl
attribute [local irreducible] Host.reduce in
theorem callOp17 : (TRef.binary main_call0.v11 main_call0.c_3 main_call0.v12 (fun x v => Host.reduce IntOp.andi x v reducesTo_S1024x1000x1_S1024x1000_d2 h_S_) : HloOp τ sig (Elt F))
    = binary main_call0_v11 main_call0_c_3 main_call0_v12 (fun (x : (⟨S1024x1000x1, .i1⟩ : BufTy).Contents (Elt F)) (v : (⟨S_, .i1⟩ : BufTy).Contents (Elt F)) => (Host.reduce IntOp.andi x v reducesTo_S1024x1000x1_S1024x1000_d2 h_S_ : (⟨S1024x1000, .i1⟩ : BufTy).Contents (Elt F))) := rfl
attribute [local irreducible] Host.gather in
theorem callOp18 : (TRef.binary (.of main_arg2) main_call0.v5 main_call0.v13 (fun x i => Host.gather gather_S1000x32_S1024x1000x1_S1024x1000x32_2_0_n_n_0_2_132 x i) : HloOp τ sig (Elt F))
    = binary main_arg2 main_call0_v5 main_call0_v13 (fun (x : (⟨S1000x32, .f32⟩ : BufTy).Contents (Elt F)) (i : (⟨S1024x1000x1, .i32⟩ : BufTy).Contents (Elt F)) => (Host.gather gather_S1000x32_S1024x1000x1_S1024x1000x32_2_0_n_n_0_2_132 x i : (⟨S1024x1000x32, .f32⟩ : BufTy).Contents (Elt F))) := rfl
theorem callOp19 : (TRef.unary main_call0.v12 main_call0.v14 (broadcastInDim S1024x1000x32 ![0, 1] bcast_S1024x1000_S1024x1000x32_0_1) : HloOp τ sig (Elt F))
    = unary main_call0_v12 main_call0_v14 (broadcastInDim S1024x1000x32 ![0, 1] bcast_S1024x1000_S1024x1000x32_0_1 : (⟨S1024x1000, .i1⟩ : BufTy).Contents (Elt F) → (⟨S1024x1000x32, .i1⟩ : BufTy).Contents (Elt F)) := rfl
theorem callOp20 : (TRef.nullary main_call0.cst (constant S_ .f32 0x7FC00000#32) : HloOp τ sig (Elt F))
    = nullary main_call0_cst (constant S_ .f32 0x7FC00000#32 : (⟨S_, .f32⟩ : BufTy).Contents (Elt F)) := rfl
theorem callOp21 : (TRef.unary main_call0.cst main_call0.v15 (broadcastInDim S1024x1000x32 ![] bcast_S_S1024x1000x32) : HloOp τ sig (Elt F))
    = unary main_call0_cst main_call0_v15 (broadcastInDim S1024x1000x32 ![] bcast_S_S1024x1000x32 : (⟨S_, .f32⟩ : BufTy).Contents (Elt F) → (⟨S1024x1000x32, .f32⟩ : BufTy).Contents (Elt F)) := rfl
theorem callOp22 : (TRef.ternary main_call0.v14 main_call0.v13 main_call0.v15 main_call0.v16 select : HloOp τ sig (Elt F))
    = ternary main_call0_v14 main_call0_v13 main_call0_v15 main_v5 (select : (⟨S1024x1000x32, .i1⟩ : BufTy).Contents (Elt F) → (⟨S1024x1000x32, .f32⟩ : BufTy).Contents (Elt F) → (⟨S1024x1000x32, .f32⟩ : BufTy).Contents (Elt F) → (⟨S1024x1000x32, .f32⟩ : BufTy).Contents (Elt F)) := rfl

/-- The line over typed references is the line over the buffers. -/
theorem ops_eq : (ops : List (HloOp τ sig (Elt F))) = opsP := by
  unfold ops opsP
  rw [callOp0, callOp1, callOp2, callOp3, callOp4, callOp5, callOp6, callOp7, callOp8, callOp9, callOp10, callOp11, callOp12, callOp13, callOp14, callOp15, callOp16, callOp17, callOp18, callOp19, callOp20, callOp21, callOp22]

/-- The line cut in two: everything before the concatenation, then the concatenation and the reshape. -/
theorem after_split (V : Valuation τ sig (Elt F)) :
    after ops V = after (opsP.drop 32) (after (opsP.take 32) V) := by
  rw [ops_eq, ← Cert.Nary3.after_append, List.take_append_drop]

set_option maxRecDepth 8192 in
/-- Before the concatenation the first piece's buffer holds the value on all lanes. -/
theorem pre_v1 (V : Valuation τ sig (Elt F)) :
    after (opsP.take 32) V (main_v1 : DevRef τ sig) = vals (V (main_arg0 : DevRef τ sig)) := by
  simp (disch := decide) only [opsP, List.take_succ_cons, List.take_zero, after_cons, after_nil,
      nullary_result', unary_result', binary_result', ternary_result',
      nullary_result_ne', unary_result_ne', binary_result_ne', ternary_result_ne']
  rfl

set_option maxRecDepth 8192 in
/-- Before the concatenation the second piece's buffer holds the looked-up rows. -/
theorem pre_v5 (V : Valuation τ sig (Elt F)) :
    after (opsP.take 32) V (main_v5 : DevRef τ sig) = rows (V (main_arg2 : DevRef τ sig)) := by
  simp (disch := decide) only [opsP, List.take_succ_cons, List.take_zero, after_cons, after_nil,
      nullary_result', unary_result', binary_result', ternary_result',
      nullary_result_ne', unary_result_ne', binary_result_ne', ternary_result_ne']
  rfl

set_option maxRecDepth 8192 in
/-- Before the concatenation the third piece's buffer holds the condition row times the mask. -/
theorem pre_v9 (V : Valuation τ sig (Elt F)) :
    after (opsP.take 32) V (main_v9 : DevRef τ sig)
      = cond (V (main_arg1 : DevRef τ sig)) (V (main_arg3 : DevRef τ sig)) := by
  simp (disch := decide) only [opsP, List.take_succ_cons, List.take_zero, after_cons, after_nil,
      nullary_result', unary_result', binary_result', ternary_result',
      nullary_result_ne', unary_result_ne', binary_result_ne', ternary_result_ne']
  rfl

/-- The concatenation and the reshape, from any contents: the result buffer holds the three pieces' buffers side by
    side, reshaped. -/
theorem post_v11 (W : Valuation τ sig (Elt F)) :
    after (opsP.drop 32) W (main_v11 : DevRef τ sig)
      = shapeCast S1024x96000
          (concatenate S1024x1000x96 2
            [⟨S1024x1000x32, W (main_v1 : DevRef τ sig)⟩, ⟨S1024x1000x32, W (main_v5 : DevRef τ sig)⟩,
              ⟨S1024x1000x32, W (main_v9 : DevRef τ sig)⟩]
            concatenates_S1024x1000x32_S1024x1000x32_S1024x1000x32_S1024x1000x96_d2)
          shapeCasts_S1024x1000x96_S1024x96000 := by
  show after [_, _] W _ = _
  rw [after_cons, after_cons, after_nil, reshape_result, Cert.Nary3.nary3_result]
  rfl

/-- The fold at the result buffer is `out` of the arguments' contents. -/
theorem after_v11 (V : Valuation τ sig (Elt F)) :
    after ops V (main_v11 : DevRef τ sig)
      = out (V (main_arg0 : DevRef τ sig)) (V (main_arg1 : DevRef τ sig)) (V (main_arg2 : DevRef τ sig))
          (V (main_arg3 : DevRef τ sig)) := by
  rw [after_split, post_v11, pre_v1, pre_v5, pre_v9]
  rfl

set_option maxRecDepth 8192 in
/-- No operation writes an argument's buffer. -/
theorem after_args (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  refine ⟨?_, ?_, ?_, ?_⟩ <;>
  simp (disch := decide) only [after_cons, after_nil,
      nullary_result_ne', unary_result_ne', binary_result_ne', ternary_result_ne', reshape_result_ne', nary_result_ne']

end Cert.ReferenceIdeal.RefValue

end
-- ==== Proof.RefIndex.lean ====
/-
  The row lookup read at an index. The node numbers are below 1000, so as 32-bit words they are non-negative and at
  most 999: the index normalisation leaves them alone, the in-bounds mask is set everywhere, and the clamped start of
  the lookup is the node number itself. The lookup then reads the table's row `n` at lane `l`.
-/
import proofs.«154151_g28037546508343_cont_9to1_1400_6_alg».proof.Proof.RefTerm
import Idealize.ShloMosaic.Lib.Pipeline.Value
import Idealize.ShloMosaic.Lib.IdealHost
import Idealize.ShloMosaic.Lib.ValueIdx

noncomputable section

namespace Cert.ReferenceIdeal.RefValue

open Cert.ReferenceIdeal Cert.ReferenceIdeal.Gen Idealize.ShloMosaic Idealize.ShloMosaic.ValueIdx

variable {F : FTy → Type} [FloatOps F]

/-- A number below 1000, as a 32-bit word read signed: not negative, at least 0, at most 999, and itself. -/
theorem word_facts : ∀ n : Fin 1000,
    IntOp.cmpi .slt (BitVec.ofNat 32 n.val) 0#32 = 0#1
    ∧ IntOp.cmpi .sge (BitVec.ofNat 32 n.val) 0#32 = 1#1
    ∧ IntOp.cmpi .sle (BitVec.ofNat 32 n.val) 999#32 = 1#1
    ∧ (BitVec.ofNat 32 n.val).toInt.toNat = n.val := by decide +kernel

/-- The node numbers at `(b, n)`: the word `n`. -/
theorem nodeIdx_apply (b : Fin 1024) (n : Fin 1000) : nodeIdx (ix2 b n) = BitVec.ofNat 32 n.val := rfl

/-- The normalised index at `(b, n)` is still `n`: it is not negative. -/
theorem normIdx_apply (b : Fin 1024) (n : Fin 1000) : normIdx (ix2 b n) = BitVec.ofNat 32 n.val := by
  show Scalar.select (IntOp.cmpi .slt (nodeIdx (ix2 b n)) 0#32) (IntOp.addi (nodeIdx (ix2 b n)) 1000#32) (nodeIdx (ix2 b n)) = _
  rw [nodeIdx_apply, (word_facts n).1]
  exact select_zero _ _

/-- The start index at `(b, n, 0)` is `n`. -/
theorem startIdx_apply (b : Fin 1024) (n : Fin 1000) (u : Fin 1) : startIdx (ix3 b n u) = BitVec.ofNat 32 n.val := by
  unfold startIdx
  rw [broadcastInDim_apply _ _ normIdx (ix3 b n u) (ix2 b n) (fun a => by
    match a with
    | ⟨0, _⟩ => rfl
    | ⟨1, _⟩ => rfl)]
  exact normIdx_apply b n

/-- A fold of the bitwise "and" from the set bit over set bits is the set bit. -/
theorem foldl_andi_ones {ι : Type} (g : ι → BitVec 1) (hg : ∀ n, g n = 1#1) :
    ∀ (L : List ι) (r : BitVec 1), r = 1#1 → L.foldl (fun r n => IntOp.andi r (g n)) r = 1#1
  | [], _, hr => hr
  | n :: L, r, hr => by
    rw [List.foldl_cons]
    exact foldl_andi_ones g hg L _ (by rw [hr, hg]; rfl)

/-- A reduction by "and" from the set bit of an array of set bits is the set bit everywhere. -/
theorem reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  unfold Host.reduce
  exact foldl_andi_ones (fun n => x (s.rowMajor.symm n)) (fun n => hx _) _ _ (hi _)

/-- The in-bounds mask is set everywhere. -/
theorem inBounds_apply (j : S1024x1000.Idx) : inBounds j = 1#1 := by
  unfold inBounds
  refine reduce_andi_ones _ _ _ _ (fun i => ?_) (fun _ => rfl) j
  obtain ⟨b, n, u, rfl⟩ : ∃ (b : Fin 1024) (n : Fin 1000) (u : Fin 1), i = ix3 b n u := ⟨i 0, i 1, i 2, eq_ix3 i⟩
  show IntOp.andi (IntOp.cmpi .sge (startIdx (ix3 b n u)) 0#32) (IntOp.cmpi .sle (startIdx (ix3 b n u)) 999#32) = 1#1
  rw [startIdx_apply, (word_facts n).2.1, (word_facts n).2.2.1]
  rfl

/-- The lookup's dimension numbers, under a short name. -/
abbrev rowDims : GatherDims S1000x32 S1024x1000x1 S1024x1000x32 :=
  gather_S1000x32_S1024x1000x1_S1024x1000x32_2_0_n_n_0_2_132

/-- THE LOOKUP READ AT `(b, n, l)`: the table at the row the start index `idx (b, n, 0)` names, read signed and
    clamped into `[0, 999]`, at lane `l`. -/
theorem gather_rows_apply {α : Type} (tab : S1000x32.Idx → α) (idx : IVec S1024x1000x1 32) (b : Fin 1024) (n : Fin 1000)
    (l : Fin 32) :
    Host.gather rowDims tab idx (ix3 b n l)
      = tab (ix2 (⟨min (idx (ix3 b n (0 : Fin 1))).toInt.toNat 999, by omega⟩ : Fin 1000) l) := by
  unfold Host.gather
  refine congrArg tab (funext fun a => Fin.ext ?_)
  match a with
  | ⟨0, _⟩ =>
    show rowDims.start (ix3 b n l) idx 0 + rowDims.batchCoord (ix3 b n l) 0 + rowDims.offCoord (ix3 b n l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b n l) ⟨List.idxOf (0 : Fin 2) rowDims.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨1, _⟩ =>
    show rowDims.start (ix3 b n l) idx 1 + rowDims.batchCoord (ix3 b n l) 1 + rowDims.offCoord (ix3 b n l) 1 = _
    rw [GatherDims.batchCoord_eq_zero _ _ _ List.not_mem_nil]
    have hs : rowDims.start (ix3 b n l) idx 1 = 0 := by
      unfold GatherDims.start
      rw [dif_neg (show ¬ (1 : Fin 2) ∈ rowDims.startIndexMap by decide)]
    rw [hs]
    unfold GatherDims.offCoord
    rw [dif_pos (show (1 : Fin 2) ∈ rowDims.sKept by decide)]
    simp only [Nat.add_zero, Nat.zero_add]
    rfl

/-- The looked-up rows at `(b, n, l)`: the table's row `n` at lane `l`. -/
theorem rows_apply (tab : FVec F S1000x32 .f32) (b : Fin 1024) (n : Fin 1000) (l : Fin 32) :
    rows tab (ix3 b n l) = tab (ix2 n l) := by
  unfold rows
  rw [select_apply, show broadcastInDim S1024x1000x32 ![0, 1] bcast_S1024x1000_S1024x1000x32_0_1 inBounds (ix3 b n l) = 1#1 from
    inBounds_apply _, select_one, gather_rows_apply]
  refine congrArg tab (congrArg (fun r : Fin 1000 => ix2 r l) (Fin.ext ?_))
  show min (startIdx (ix3 b n 0)).toInt.toNat 999 = n.val
  rw [startIdx_apply, (word_facts n).2.2.2]
  omega

end Cert.ReferenceIdeal.RefValue

end
-- ==== Proof.LibTrailingMerge.lean ====
/-
  Two reshapes read at an index given by coordinates: the one that merges the two trailing axes of a rank-3 array,
  `[a, b, c] → [a, n]` with `n = b · c`, and the one that splits the trailing axis of a matrix in two and appends a unit
  axis, `[a, n] → [a, b, c, 1]`. In both, the merged coordinate is `l = j · c + k`: the two indices have the same
  row-major position.
-/
import Idealize.ShloMosaic.Lib.Pipeline.Value
import Idealize.ShloMosaic.Lib.ValueIdx

namespace Cert.TrailingMerge

open Idealize.ShloMosaic Idealize.ShloMosaic.ValueIdx

variable {α : Type}

/-- `[a, b, c]` reshaped to `[a, b · c]` reads, at `(i, j · c + k)`, the operand at `(i, j, k)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (l : Fin n) (j : Fin b) (k : Fin c)
    (hl : l.val = j.val * c + k.val) : shapeCast ⟨2, ![a, n]⟩ x h (ix2 i l) = x (ix3 i j k) :=
  shapeCast_apply x h _ _ (by
    rw [Shape.rowMajor_val_three, Shape.rowMajor_val_two]
    show (i.val * b + j.val) * c + k.val = i.val * n + l.val
    subst hn
    rw [hl]
    ring)

/-- `[a, b · c]` reshaped to `[a, b, c, 1]` reads, at `(i, j, k, u)`, the operand at `(i, j · c + k)`. -/
theorem shapeCast_an_abc1_apply {a b c n : ℕ} (hn : n = b * c) (y : (⟨2, ![a, n]⟩ : Shape).Idx → α)
    (h : (⟨2, ![a, n]⟩ : Shape).ShapeCasts ⟨4, ![a, b, c, 1]⟩) (i : Fin a) (j : Fin b) (k : Fin c) (u : Fin 1) (l : Fin n)
    (hl : l.val = j.val * c + k.val) : shapeCast ⟨4, ![a, b, c, 1]⟩ y h (ix4 i j k u) = y (ix2 i l) :=
  shapeCast_apply y h _ _ (by
    rw [Shape.rowMajor_val_two, Shape.rowMajor_val_four]
    show i.val * n + l.val = ((i.val * b + j.val) * c + k.val) * 1 + u.val
    have hu : u.val = 0 := by omega
    subst hn
    rw [hl, hu]
    ring)

end Cert.TrailingMerge
-- ==== Proof.RefValue.lean ====
/-
  The reference's result is the embedding row `Cert.Embed.G` of its four arguments, index by index. Column `c` of row
  `b` is lane `c % 96` of node `c / 96` (the reshape merges the node and lane axes); the lane falls in one of the three
  32-lane pieces of the concatenation — the repeated value, the looked-up table row, the scaled condition row — and
  each piece is read through its broadcasts. With the run of the straight line this gives the statement `run`.
-/
import proofs.«154151_g28037546508343_cont_9to1_1400_6_alg».proof.Proof.RefIndex
import proofs.«154151_g28037546508343_cont_9to1_1400_6_alg».proof.Proof.LibTrailingMerge
import proofs.«154151_g28037546508343_cont_9to1_1400_6_alg».proof.Proof.Spec

noncomputable section

namespace Cert.ReferenceIdeal.RefValue

open Cert.ReferenceIdeal Cert.ReferenceIdeal.Gen Idealize.ShloMosaic Idealize.ShloMosaic.ValueIdx

/-- The first piece at `(b, n, l)`: the value `x b n`. -/
theorem vals_apply {F : FTy → Type} [FloatOps F] (x : FVec F S1024x1000 .f32) (b : Fin 1024) (n : Fin 1000) (l : Fin 32) :
    vals x (ix3 b n l) = x (ix2 b n) := by
  unfold vals
  rw [broadcastInDim_apply _ _ _ (ix3 b n l) (ix3 b n (0 : Fin 1)) (fun a => by
      match a with
      | ⟨0, _⟩ => rfl
      | ⟨1, _⟩ => rfl
      | ⟨2, _⟩ => rfl),
    broadcastInDim_apply _ _ x (ix3 b n (0 : Fin 1)) (ix2 b n) (fun a => by
      match a with
      | ⟨0, _⟩ => rfl
      | ⟨1, _⟩ => rfl)]

/-- The third piece at `(b, n, l)`: the condition row's lane `l` times the mask `mask b n`. -/
theorem cond_apply (mask : FVec Ideal S1024x1000 .f32) (ce : FVec Ideal S1x1x32 .f32) (b : Fin 1024) (n : Fin 1000)
    (l : Fin 32) : cond mask ce (ix3 b n l) = ce (ix3 0 0 l) * mask (ix2 b n) := by
  unfold cond
  rw [mulf_apply,
    broadcastInDim_apply _ _ ce (ix3 b n l) (ix3 (0 : Fin 1) (0 : Fin 1) l) (fun a => by
      match a with
      | ⟨0, _⟩ => rfl
      | ⟨1, _⟩ => rfl
      | ⟨2, _⟩ => rfl),
    broadcastInDim_apply _ _ _ (ix3 b n l) (ix3 b n (0 : Fin 1)) (fun a => by
      match a with
      | ⟨0, _⟩ => rfl
      | ⟨1, _⟩ => rfl
      | ⟨2, _⟩ => rfl),
    broadcastInDim_apply _ _ mask (ix3 b n (0 : Fin 1)) (ix2 b n) (fun a => by
      match a with
      | ⟨0, _⟩ => rfl
      | ⟨1, _⟩ => rfl)]

section Pieces
variable {F : FTy → Type} [FloatOps F] (x mask : FVec F S1024x1000 .f32) (tab : FVec F S1000x32 .f32)
  (ce : FVec F S1x1x32 .f32) (b : Fin 1024) (n : Fin 1000) (q : Fin 96)

/-- A lane below 32 of a node's group reads the first piece at that lane. -/
theorem cat_apply_fst (l : Fin 32) (hl : l.val = q.val) : cat x mask tab ce (ix3 b n q) = vals x (ix3 b n l) :=
  concatenate_apply_piece (t := S1024x1000x96) 2 _ _ (ix3 b n q) 0 (by show (0 : ℕ) < 3; omega) S1024x1000x32 (vals x) rfl rfl 0 rfl
    (ix3 b n l)
    (fun a ha => by
      match a with
      | ⟨0, _⟩ => rfl
      | ⟨1, _⟩ => rfl
      | ⟨2, _⟩ => exact absurd rfl ha)
    (by show 0 + l.val = q.val; omega)

/-- A lane from 32 below 64 reads the second piece at the lane less 32. -/
theorem cat_apply_snd (l : Fin 32) (hl : 32 + l.val = q.val) : cat x mask tab ce (ix3 b n q) = rows tab (ix3 b n l) :=
  concatenate_apply_piece (t := S1024x1000x96) 2 _ _ (ix3 b n q) 1 (by show (1 : ℕ) < 3; omega) S1024x1000x32 (rows tab) rfl rfl 32 rfl
    (ix3 b n l)
    (fun a ha => by
      match a with
      | ⟨0, _⟩ => rfl
      | ⟨1, _⟩ => rfl
      | ⟨2, _⟩ => exact absurd rfl ha)
    (by show 32 + l.val = q.val; omega)

/-- A lane from 64 on reads the third piece at the lane less 64. -/
theorem cat_apply_trd (l : Fin 32) (hl : 64 + l.val = q.val) : cat x mask tab ce (ix3 b n q) = cond mask ce (ix3 b n l) :=
  concatenate_apply_piece (t := S1024x1000x96) 2 _ _ (ix3 b n q) 2 (by show (2 : ℕ) < 3; omega) S1024x1000x32 (cond mask ce) rfl rfl 64 rfl
    (ix3 b n l)
    (fun a ha => by
      match a with
      | ⟨0, _⟩ => rfl
      | ⟨1, _⟩ => rfl
      | ⟨2, _⟩ => exact absurd rfl ha)
    (by show 64 + l.val = q.val; omega)

end Pieces

/-- The reference's result is the embedding row of its arguments. -/
theorem out_eq_G (x mask : FVec Ideal S1024x1000 .f32) (tab : FVec Ideal S1000x32 .f32) (ce : FVec Ideal S1x1x32 .f32) :
    out x mask tab ce = Cert.Embed.G x mask tab ce := by
  funext i
  obtain ⟨b, c, rfl⟩ : ∃ (b : Fin 1024) (c : Fin 96000), i = ix2 b c := ⟨i 0, i 1, eq_ix2 i⟩
  have hq : c.val % 96 < 96 := Nat.mod_lt _ (by decide)
  rw [Cert.Embed.G_apply]
  unfold out
  rw [Cert.TrailingMerge.shapeCast_abc_an_apply (a := 1024) (b := 1000) (c := 96) (n := 96000) rfl _ _ b c
    (Cert.Embed.node c) ⟨c.val % 96, hq⟩ (by show c.val = c.val / 96 * 96 + c.val % 96; omega)]
  by_cases h1 : c.val % 96 < 32
  · rw [if_pos h1, cat_apply_fst x mask tab ce b (Cert.Embed.node c) ⟨c.val % 96, hq⟩ (Cert.Embed.lane c)
      (by show c.val % 96 % 32 = c.val % 96; omega), vals_apply]
  · rw [if_neg h1]
    by_cases h2 : c.val % 96 < 64
    · rw [if_pos h2, cat_apply_snd x mask tab ce b (Cert.Embed.node c) ⟨c.val % 96, hq⟩ (Cert.Embed.lane c)
        (by show 32 + c.val % 96 % 32 = c.val % 96; omega), rows_apply]
    · rw [if_neg h2, cat_apply_trd x mask tab ce b (Cert.Embed.node c) ⟨c.val % 96, hq⟩ (Cert.Embed.lane c)
        (by show 64 + c.val % 96 % 32 = c.val % 96; omega), cond_apply]

open Idealize.ShloMosaic.TcCoe Idealize.SL.Sem Idealize.ShloMosaic.StableHlo in
/-- From any memory with zero counters: every weakly fair execution of the reference terminates with its result
    buffer at the embedding row of the four arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
          = Cert.Embed.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v11).trans ((after_v11 (launchContents m c)).trans (out_eq_G _ _ _ _)),
        (h c main_arg0).trans (after_args (launchContents m c)).1,
        (h c main_arg1).trans (after_args (launchContents m c)).2.1,
        (h c main_arg2).trans (after_args (launchContents m c)).2.2.1,
        (h c main_arg3).trans (after_args (launchContents m c)).2.2.2⟩)
    (run_main m ρ)

end Cert.ReferenceIdeal.RefValue

end
-- ==== Proof.lean ====
/-
  The embedding kernel against its reference: `Cert.Claim`.

  The kernel writes the [1024, 96000] output tile by tile (256 rows by 40 nodes' 96 lanes), each tile as two small
  matrix products against constant pattern matrices plus a row: the transposed value tile against a 0/1 matrix that
  copies a node's value into its first 32 lanes, the transposed mask tile against a matrix that holds the condition
  embedding in a node's last 32 lanes, and the node-embedding row for the middle 32 lanes.  The reference broadcasts
  the value, looks every node's own embedding up in the table (in order, so the lookup is the table itself), scales
  the condition embedding by the mask, concatenates the three 32-wide pieces and flattens.

  On the extended reals both are one function of the four argument arrays (Proof/Spec.lean): a sum against a column
  with a single non-zero entry keeps one term, x · 1 = x, x · 0 = 0, and the product commutes — none of which needs
  the inputs to be finite, so the precondition is never opened.  The kernel's run at that function is
  Proof/KBlocks.lean (over the generated frame run), the reference's is Proof/RefValue.lean (its run written out over
  its operations, its two outlined functions unfolded).  The three frames are the generated frames (the reference's is
  its run with the result dropped); the idealization rewrote nothing, so `preserves` is trivial.
-/
import proofs.«154151_g28037546508343_cont_9to1_1400_6_alg».proof.Defs
import proofs.«154151_g28037546508343_cont_9to1_1400_6_alg».proof.Proof.Gen.Kernel
import proofs.«154151_g28037546508343_cont_9to1_1400_6_alg».proof.Proof.Gen.Kernel.Skeleton
import proofs.«154151_g28037546508343_cont_9to1_1400_6_alg».proof.Proof.Gen.Kernel.Launch
import proofs.«154151_g28037546508343_cont_9to1_1400_6_alg».proof.Proof.Gen.Kernel.Points
import proofs.«154151_g28037546508343_cont_9to1_1400_6_alg».proof.Proof.Gen.Kernel.Frame
import proofs.«154151_g28037546508343_cont_9to1_1400_6_alg».proof.Proof.Gen.KernelIdeal
import proofs.«154151_g28037546508343_cont_9to1_1400_6_alg».proof.Proof.Gen.KernelIdeal.Skeleton
import proofs.«154151_g28037546508343_cont_9to1_1400_6_alg».proof.Proof.Gen.KernelIdeal.Launch
import proofs.«154151_g28037546508343_cont_9to1_1400_6_alg».proof.Proof.Gen.KernelIdeal.Points
import proofs.«154151_g28037546508343_cont_9to1_1400_6_alg».proof.Proof.Gen.KernelIdeal.Frame
import proofs.«154151_g28037546508343_cont_9to1_1400_6_alg».proof.Proof.Gen.KernelIdeal.Value
import proofs.«154151_g28037546508343_cont_9to1_1400_6_alg».proof.Proof.Gen.ReferenceIdeal
import proofs.«154151_g28037546508343_cont_9to1_1400_6_alg».proof.Proof.Gen.Pre_finite_inputs
import proofs.«154151_g28037546508343_cont_9to1_1400_6_alg».proof.Proof.KBlocks
import proofs.«154151_g28037546508343_cont_9to1_1400_6_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the result array at the embedding row of the (agreeing) argument arrays. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
